-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v8)) (v3 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_v10) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_v37) = v2 c
          ∧ r.2.mem ((c.tc : Thread Cert.ReferenceIdeal.nD Cert.ReferenceIdeal.τ).loc Cert.ReferenceIdeal.main_v38) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x512x512 : Shape := ⟨4, ![8, 64, 512, 512]⟩
abbrev S_ : Shape := ⟨0, ![]⟩

class Facts : Prop where
  bcast_S_S8x64x512x512 : S_.BroadcastsInDim S8x64x512x512 (![] : Fin 0 → Fin S8x64x512x512.rank)
  reducesTo_S8x64x512x512_S_d0_1_2_3 : S8x64x512x512.ReducesTo [0, 1, 2, 3] S_
  h_S_ : 0 < S_.numel

variable [Facts]

def fn {F : FTy → Type} [FloatOps F] (main_arg0 : FVec F S8x64x512x512 .f32) : IVec S_ 1 :=
  let main_v0 : FVec F S8x64x512x512 .f32 := Host.absf main_arg0
  let main_cst : FVec F S_ .f32 := constant S_ .f32 0x7F800000#32
  let main_v1 : FVec F S8x64x512x512 .f32 := broadcastInDim S8x64x512x512 ![] bcast_S_S8x64x512x512 main_cst
  let main_v2 : IVec S8x64x512x512 1 := cmpf .olt main_v0 main_v1
  let main_c : IVec S_ 1 := constantI S_ 1 1#1
  let main_v3 : IVec S_ 1 := (fun x v => Host.reduce IntOp.andi x v reducesTo_S8x64x512x512_S_d0_1_2_3 h_S_) main_v2 main_c
  main_v3
-- ==== Kernel.lean ====
abbrev S8x64x512x512 : Shape := ⟨4, ![8, 64, 512, 512]⟩
abbrev S8x64x256x2x256x2 : Shape := ⟨6, ![8, 64, 256, 2, 256, 2]⟩
abbrev S2x2x8x64x256x256 : Shape := ⟨6, ![2, 2, 8, 64, 256, 256]⟩
abbrev S4x8x64x256x256 : Shape := ⟨5, ![4, 8, 64, 256, 256]⟩
abbrev S2x2x1x4x256x256 : Shape := ⟨6, ![2, 2, 1, 4, 256, 256]⟩
abbrev S1x1x16x256x256 : Shape := ⟨5, ![1, 1, 16, 256, 256]⟩
abbrev S1x1x1x1x256x256 : Shape := ⟨6, ![1, 1, 1, 1, 256, 256]⟩
abbrev S256x256 : Shape := ⟨2, ![256, 256]⟩
abbrev S1x1x1x256x256 : Shape := ⟨5, ![1, 1, 1, 256, 256]⟩
abbrev S1x8x64x256x256 : Shape := ⟨5, ![1, 8, 64, 256, 256]⟩
abbrev S8x64x256x256 : Shape := ⟨4, ![8, 64, 256, 256]⟩

abbrev nBuf : Space → Nat
  | .hbm => 12
  | .vmem => 4
  | .smem => 0
  | _ => 0

abbrev bufTy : (tb : Table) → Fin (tcTables nBuf tb) → BufTy
  | .hbm, ⟨0, _⟩ => ⟨S8x64x512x512, .f32⟩
  | .hbm, ⟨1, _⟩ => ⟨S8x64x256x2x256x2, .f32⟩
  | .hbm, ⟨2, _⟩ => ⟨S2x2x8x64x256x256, .f32⟩
  | .hbm, ⟨3, _⟩ => ⟨S4x8x64x256x256, .f32⟩
  | .hbm, ⟨4, _⟩ => ⟨S1x8x64x256x256, .f32⟩
  | .hbm, ⟨5, _⟩ => ⟨S8x64x256x256, .f32⟩
  | .hbm, ⟨6, _⟩ => ⟨S1x8x64x256x256, .f32⟩
  | .hbm, ⟨7, _⟩ => ⟨S8x64x256x256, .f32⟩
  | .hbm, ⟨8, _⟩ => ⟨S1x8x64x256x256, .f32⟩
  | .hbm, ⟨9, _⟩ => ⟨S8x64x256x256, .f32⟩
  | .hbm, ⟨10, _⟩ => ⟨S1x8x64x256x256, .f32⟩
  | .hbm, ⟨11, _⟩ => ⟨S8x64x256x256, .f32⟩
  | .local _ .vmem, ⟨0, _⟩ => ⟨S2x2x1x4x256x256, .f32⟩
  | .local _ .vmem, ⟨1, _⟩ => ⟨S2x2x1x4x256x256, .f32⟩
  | .local _ .vmem, ⟨2, _⟩ => ⟨S1x1x16x256x256, .f32⟩
  | .local _ .vmem, ⟨3, _⟩ => ⟨S1x1x16x256x256, .f32⟩
  | _, _ => ⟨S8x64x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨3, ![4, 8, 4], ![false, false, false]⟩

def cc0_transform_0 (i : grid0.Coords) : Fin 6 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, arg1.toNat, v1.toNat, c0_i32_1.toNat, c0_i32_2.toNat]

def cc0_transform_1 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

abbrev stage0_0 : Fin 2 → Memref sig .tc .vmem S2x2x1x4x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x16x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

class Facts₀ : Prop where
  shapeCasts_S8x64x512x512_S8x64x256x2x256x2 : S8x64x512x512.ShapeCasts S8x64x256x2x256x2
  transposes_S8x64x256x2x256x2_S2x2x8x64x256x256_3_5_0_1_2_4 : S8x64x256x2x256x2.Transposes [3, 5, 0, 1, 2, 4] S2x2x8x64x256x256
  inb_S2x2x1x4x256x256_S1x1x1x1x256x256_0_0_0_0_0_0 : ∀ a, (![0, 0, 0, 0, 0, 0] : Fin 6 → Nat) a + S1x1x1x1x256x256.size a ≤ S2x2x1x4x256x256.size a
  h_S1x1x1x1x256x256 : 0 < S1x1x1x1x256x256.numel
  shapeCasts_S1x1x1x1x256x256_S256x256 : S1x1x1x1x256x256.ShapeCasts S256x256
  inb_S2x2x1x4x256x256_S1x1x1x1x256x256_0_1_0_0_0_0 : ∀ a, (![0, 1, 0, 0, 0, 0] : Fin 6 → Nat) a + S1x1x1x1x256x256.size a ≤ S2x2x1x4x256x256.size a
  inb_S2x2x1x4x256x256_S1x1x1x1x256x256_1_0_0_0_0_0 : ∀ a, (![1, 0, 0, 0, 0, 0] : Fin 6 → Nat) a + S1x1x1x1x256x256.size a ≤ S2x2x1x4x256x256.size a
  inb_S2x2x1x4x256x256_S1x1x1x1x256x256_1_1_0_0_0_0 : ∀ a, (![1, 1, 0, 0, 0, 0] : Fin 6 → Nat) a + S1x1x1x1x256x256.size a ≤ S2x2x1x4x256x256.size a
  inb_S1x1x16x256x256_S1x1x1x256x256_0_0_0_0_0 : ∀ a, (![0, 0, 0, 0, 0] : Fin 5 → Nat) a + S1x1x1x256x256.size a ≤ S1x1x16x256x256.size a
  h_S1x1x1x256x256 : 0 < S1x1x1x256x256.numel
  shapeCasts_S1x1x1x256x256_S256x256 : S1x1x1x256x256.ShapeCasts S256x256
  shapeCasts_S256x256_S1x1x1x256x256 : S256x256.ShapeCasts S1x1x1x256x256
  inb_S1x1x16x256x256_S1x1x1x256x256_0_0_1_0_0 : ∀ a, (![0, 0, 1, 0, 0] : Fin 5 → Nat) a + S1x1x1x256x256.size a ≤ S1x1x16x256x256.size a
  inb_S1x1x16x256x256_S1x1x1x256x256_0_0_2_0_0 : ∀ a, (![0, 0, 2, 0, 0] : Fin 5 → Nat) a + S1x1x1x256x256.size a ≤ S1x1x16x256x256.size a
  inb_S1x1x16x256x256_S1x1x1x256x256_0_0_3_0_0 : ∀ a, (![0, 0, 3, 0, 0] : Fin 5 → Nat) a + S1x1x1x256x256.size a ≤ S1x1x16x256x256.size a
  inb_S2x2x1x4x256x256_S1x1x1x1x256x256_0_0_0_1_0_0 : ∀ a, (![0, 0, 0, 1, 0, 0] : Fin 6 → Nat) a + S1x1x1x1x256x256.size a ≤ S2x2x1x4x256x256.size a
  inb_S2x2x1x4x256x256_S1x1x1x1x256x256_0_1_0_1_0_0 : ∀ a, (![0, 1, 0, 1, 0, 0] : Fin 6 → Nat) a + S1x1x1x1x256x256.size a ≤ S2x2x1x4x256x256.size a
  inb_S2x2x1x4x256x256_S1x1x1x1x256x256_1_0_0_1_0_0 : ∀ a, (![1, 0, 0, 1, 0, 0] : Fin 6 → Nat) a + S1x1x1x1x256x256.size a ≤ S2x2x1x4x256x256.size a
  inb_S2x2x1x4x256x256_S1x1x1x1x256x256_1_1_0_1_0_0 : ∀ a, (![1, 1, 0, 1, 0, 0] : Fin 6 → Nat) a + S1x1x1x1x256x256.size a ≤ S2x2x1x4x256x256.size a
  inb_S1x1x16x256x256_S1x1x1x256x256_0_0_4_0_0 : ∀ a, (![0, 0, 4, 0, 0] : Fin 5 → Nat) a + S1x1x1x256x256.size a ≤ S1x1x16x256x256.size a
  inb_S1x1x16x256x256_S1x1x1x256x256_0_0_5_0_0 : ∀ a, (![0, 0, 5, 0, 0] : Fin 5 → Nat) a + S1x1x1x256x256.size a ≤ S1x1x16x256x256.size a
  inb_S1x1x16x256x256_S1x1x1x256x256_0_0_6_0_0 : ∀ a, (![0, 0, 6, 0, 0] : Fin 5 → Nat) a + S1x1x1x256x256.size a ≤ S1x1x16x256x256.size a
  inb_S1x1x16x256x256_S1x1x1x256x256_0_0_7_0_0 : ∀ a, (![0, 0, 7, 0, 0] : Fin 5 → Nat) a + S1x1x1x256x256.size a ≤ S1x1x16x256x256.size a
  inb_S2x2x1x4x256x256_S1x1x1x1x256x256_0_0_0_2_0_0 : ∀ a, (![0, 0, 0, 2, 0, 0] : Fin 6 → Nat) a + S1x1x1x1x256x256.size a ≤ S2x2x1x4x256x256.size a
  inb_S2x2x1x4x256x256_S1x1x1x1x256x256_0_1_0_2_0_0 : ∀ a, (![0, 1, 0, 2, 0, 0] : Fin 6 → Nat) a + S1x1x1x1x256x256.size a ≤ S2x2x1x4x256x256.size a
  inb_S2x2x1x4x256x256_S1x1x1x1x256x256_1_0_0_2_0_0 : ∀ a, (![1, 0, 0, 2, 0, 0] : Fin 6 → Nat) a + S1x1x1x1x256x256.size a ≤ S2x2x1x4x256x256.size a
  inb_S2x2x1x4x256x256_S1x1x1x1x256x256_1_1_0_2_0_0 : ∀ a, (![1, 1, 0, 2, 0, 0] : Fin 6 → Nat) a + S1x1x1x1x256x256.size a ≤ S2x2x1x4x256x256.size a
  inb_S1x1x16x256x256_S1x1x1x256x256_0_0_8_0_0 : ∀ a, (![0, 0, 8, 0, 0] : Fin 5 → Nat) a + S1x1x1x256x256.size a ≤ S1x1x16x256x256.size a
  inb_S1x1x16x256x256_S1x1x1x256x256_0_0_9_0_0 : ∀ a, (![0, 0, 9, 0, 0] : Fin 5 → Nat) a + S1x1x1x256x256.size a ≤ S1x1x16x256x256.size a
  inb_S1x1x16x256x256_S1x1x1x256x256_0_0_10_0_0 : ∀ a, (![0, 0, 10, 0, 0] : Fin 5 → Nat) a + S1x1x1x256x256.size a ≤ S1x1x16x256x256.size a
  inb_S1x1x16x256x256_S1x1x1x256x256_0_0_11_0_0 : ∀ a, (![0, 0, 11, 0, 0] : Fin 5 → Nat) a + S1x1x1x256x256.size a ≤ S1x1x16x256x256.size a
  inb_S2x2x1x4x256x256_S1x1x1x1x256x256_0_0_0_3_0_0 : ∀ a, (![0, 0, 0, 3, 0, 0] : Fin 6 → Nat) a + S1x1x1x1x256x256.size a ≤ S2x2x1x4x256x256.size a
  inb_S2x2x1x4x256x256_S1x1x1x1x256x256_0_1_0_3_0_0 : ∀ a, (![0, 1, 0, 3, 0, 0] : Fin 6 → Nat) a + S1x1x1x1x256x256.size a ≤ S2x2x1x4x256x256.size a
  inb_S2x2x1x4x256x256_S1x1x1x1x256x256_1_0_0_3_0_0 : ∀ a, (![1, 0, 0, 3, 0, 0] : Fin 6 → Nat) a + S1x1x1x1x256x256.size a ≤ S2x2x1x4x256x256.size a
  inb_S2x2x1x4x256x256_S1x1x1x1x256x256_1_1_0_3_0_0 : ∀ a, (![1, 1, 0, 3, 0, 0] : Fin 6 → Nat) a + S1x1x1x1x256x256.size a ≤ S2x2x1x4x256x256.size a
  inb_S1x1x16x256x256_S1x1x1x256x256_0_0_12_0_0 : ∀ a, (![0, 0, 12, 0, 0] : Fin 5 → Nat) a + S1x1x1x256x256.size a ≤ S1x1x16x256x256.size a
  inb_S1x1x16x256x256_S1x1x1x256x256_0_0_13_0_0 : ∀ a, (![0, 0, 13, 0, 0] : Fin 5 → Nat) a + S1x1x1x256x256.size a ≤ S1x1x16x256x256.size a
  inb_S1x1x16x256x256_S1x1x1x256x256_0_0_14_0_0 : ∀ a, (![0, 0, 14, 0, 0] : Fin 5 → Nat) a + S1x1x1x256x256.size a ≤ S1x1x16x256x256.size a
  inb_S1x1x16x256x256_S1x1x1x256x256_0_0_15_0_0 : ∀ a, (![0, 0, 15, 0, 0] : Fin 5 → Nat) a + S1x1x1x256x256.size a ≤ S1x1x16x256x256.size a
  slices_S4x8x64x256x256_S1x8x64x256x256_0_0_0_0_0 : S4x8x64x256x256.Slices ![0, 0, 0, 0, 0] S1x8x64x256x256
  shapeCasts_S1x8x64x256x256_S8x64x256x256 : S1x8x64x256x256.ShapeCasts S8x64x256x256
  slices_S4x8x64x256x256_S1x8x64x256x256_1_0_0_0_0 : S4x8x64x256x256.Slices ![1, 0, 0, 0, 0] S1x8x64x256x256
  slices_S4x8x64x256x256_S1x8x64x256x256_2_0_0_0_0 : S4x8x64x256x256.Slices ![2, 0, 0, 0, 0] S1x8x64x256x256
  slices_S4x8x64x256x256_S1x8x64x256x256_3_0_0_0_0 : S4x8x64x256x256.Slices ![3, 0, 0, 0, 0] S1x8x64x256x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x2x1x4x256x256.size a ≤ S2x2x8x64x256x256.size a
  hwx0_0 : ∀ i : grid0.Coords, EltTy.bits .f32 = 32 ∨ (Rect.block (s := S2x2x8x64x256x256) S2x2x1x4x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x16x256x256.size a ≤ S4x8x64x256x256.size a
  hwx0_1 : ∀ i : grid0.Coords, EltTy.bits .f32 = 32 ∨ (Rect.block (s := S4x8x64x256x256) S1x1x16x256x256.size (cc0_transform_1 i) (hinb0_1 i)).WholeWords (EltTy.packing .f32)

variable [Facts₀]

abbrev win0_0 : Pipeline.Window sig grid0 :=
  Pipeline.Window.ofSpec (Memref.whole main_v1) S2x2x1x4x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x1x16x256x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x64x512x512 : Shape := ⟨4, ![8, 64, 512, 512]⟩
abbrev S8x64x256x2x256x2 : Shape := ⟨6, ![8, 64, 256, 2, 256, 2]⟩
abbrev S8x64x256x1x256x1 : Shape := ⟨6, ![8, 64, 256, 1, 256, 1]⟩
abbrev S8x64x256x256 : Shape := ⟨4, ![8, 64, 256, 256]⟩
abbrev S_ : Shape := ⟨0, ![]⟩
abbrev S8x64x1x256x256 : Shape := ⟨5, ![8, 64, 1, 256, 256]⟩
abbrev S8x64x4x256x256 : Shape := ⟨5, ![8, 64, 4, 256, 256]⟩
abbrev S8x256x256x256 : Shape := ⟨4, ![8, 256, 256, 256]⟩

abbrev nBuf : Space → Nat
  | .hbm => 44
  | .vmem => 0
  | .smem => 0
  | _ => 0

abbrev bufTy : (tb : Table) → Fin (tcTables nBuf tb) → BufTy
  | .hbm, ⟨0, _⟩ => ⟨S8x64x512x512, .f32⟩
  | .hbm, ⟨1, _⟩ => ⟨S8x64x256x2x256x2, .f32⟩
  | .hbm, ⟨2, _⟩ => ⟨S8x64x256x1x256x1, .f32⟩
  | .hbm, ⟨3, _⟩ => ⟨S8x64x256x256, .f32⟩
  | .hbm, ⟨4, _⟩ => ⟨S8x64x256x1x256x1, .f32⟩
  | .hbm, ⟨5, _⟩ => ⟨S8x64x256x256, .f32⟩
  | .hbm, ⟨6, _⟩ => ⟨S8x64x256x1x256x1, .f32⟩
  | .hbm, ⟨7, _⟩ => ⟨S8x64x256x256, .f32⟩
  | .hbm, ⟨8, _⟩ => ⟨S8x64x256x1x256x1, .f32⟩
  | .hbm, ⟨9, _⟩ => ⟨S8x64x256x256, .f32⟩
  | .hbm, ⟨10, _⟩ => ⟨S8x64x256x256, .f32⟩
  | .hbm, ⟨11, _⟩ => ⟨S8x64x256x256, .f32⟩
  | .hbm, ⟨12, _⟩ => ⟨S8x64x256x256, .f32⟩
  | .hbm, ⟨13, _⟩ => ⟨S_, .f32⟩
  | .hbm, ⟨14, _⟩ => ⟨S8x64x256x256, .f32⟩
  | .hbm, ⟨15, _⟩ => ⟨S8x64x256x256, .f32⟩
  | .hbm, ⟨16, _⟩ => ⟨S8x64x256x256, .f32⟩
  | .hbm, ⟨17, _⟩ => ⟨S8x64x256x256, .f32⟩
  | .hbm, ⟨18, _⟩ => ⟨S8x64x256x256, .f32⟩
  | .hbm, ⟨19, _⟩ => ⟨S_, .f32⟩
  | .hbm, ⟨20, _⟩ => ⟨S8x64x256x256, .f32⟩
  | .hbm, ⟨21, _⟩ => ⟨S8x64x256x256, .f32⟩
  | .hbm, ⟨22, _⟩ => ⟨S8x64x256x256, .f32⟩
  | .hbm, ⟨23, _⟩ => ⟨S8x64x256x256, .f32⟩
  | .hbm, ⟨24, _⟩ => ⟨S8x64x256x256, .f32⟩
  | .hbm, ⟨25, _⟩ => ⟨S_, .f32⟩
  | .hbm, ⟨26, _⟩ => ⟨S8x64x256x256, .f32⟩
  | .hbm, ⟨27, _⟩ => ⟨S8x64x256x256, .f32⟩
  | .hbm, ⟨28, _⟩ => ⟨S8x64x256x256, .f32⟩
  | .hbm, ⟨29, _⟩ => ⟨S8x64x256x256, .f32⟩
  | .hbm, ⟨30, _⟩ => ⟨S8x64x256x256, .f32⟩
  | .hbm, ⟨31, _⟩ => ⟨S_, .f32⟩
  | .hbm, ⟨32, _⟩ => ⟨S8x64x256x256, .f32⟩
  | .hbm, ⟨33, _⟩ => ⟨S8x64x256x256, .f32⟩
  | .hbm, ⟨34, _⟩ => ⟨S8x64x1x256x256, .f32⟩
  | .hbm, ⟨35, _⟩ => ⟨S8x64x1x256x256, .f32⟩
  | .hbm, ⟨36, _⟩ => ⟨S8x64x1x256x256, .f32⟩
  | .hbm, ⟨37, _⟩ => ⟨S8x64x1x256x256, .f32⟩
  | .hbm, ⟨38, _⟩ => ⟨S8x64x4x256x256, .f32⟩
  | .hbm, ⟨39, _⟩ => ⟨S8x256x256x256, .f32⟩
  | .hbm, ⟨40, _⟩ => ⟨S8x64x256x256, .f32⟩
  | .hbm, ⟨41, _⟩ => ⟨S8x64x256x256, .f32⟩
  | .hbm, ⟨42, _⟩ => ⟨S8x64x256x256, .f32⟩
  | .hbm, ⟨43, _⟩ => ⟨S8x64x256x256, .f32⟩
  | _, _ => ⟨S8x64x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_cst : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_cst_0 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_cst_1 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_cst_2 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩

abbrev nD : Nat := 1
abbrev τ : Topo := Topo.v7x

variable {F : FTy → Type} [FloatOps F]

class Facts₀ : Prop where
  shapeCasts_S8x64x512x512_S8x64x256x2x256x2 : S8x64x512x512.ShapeCasts S8x64x256x2x256x2
  slices_S8x64x256x2x256x2_S8x64x256x1x256x1_0_0_0_0_0_0 : S8x64x256x2x256x2.Slices ![0, 0, 0, 0, 0, 0] S8x64x256x1x256x1
  shapeCasts_S8x64x256x1x256x1_S8x64x256x256 : S8x64x256x1x256x1.ShapeCasts S8x64x256x256
  slices_S8x64x256x2x256x2_S8x64x256x1x256x1_0_0_0_0_0_1 : S8x64x256x2x256x2.Slices ![0, 0, 0, 0, 0, 1] S8x64x256x1x256x1
  slices_S8x64x256x2x256x2_S8x64x256x1x256x1_0_0_0_1_0_0 : S8x64x256x2x256x2.Slices ![0, 0, 0, 1, 0, 0] S8x64x256x1x256x1
  slices_S8x64x256x2x256x2_S8x64x256x1x256x1_0_0_0_1_0_1 : S8x64x256x2x256x2.Slices ![0, 0, 0, 1, 0, 1] S8x64x256x1x256x1
  bcast_S_S8x64x256x256 : S_.BroadcastsInDim S8x64x256x256 (![] : Fin 0 → Fin S8x64x256x256.rank)
  bcast_S8x64x256x256_S8x64x1x256x256_0_1_3_4 : S8x64x256x256.BroadcastsInDim S8x64x1x256x256 (![0, 1, 3, 4] : Fin 4 → Fin S8x64x1x256x256.rank)
  concatenates_S8x64x1x256x256_S8x64x1x256x256_S8x64x1x256x256_S8x64x1x256x256_S8x64x4x256x256_d2 : Shape.Concatenates [S8x64x1x256x256, S8x64x1x256x256, S8x64x1x256x256, S8x64x1x256x256] S8x64x4x256x256 2
  shapeCasts_S8x64x4x256x256_S8x256x256x256 : S8x64x4x256x256.ShapeCasts S8x256x256x256
  slices_S8x256x256x256_S8x64x256x256_0_0_0_0 : S8x256x256x256.Slices ![0, 0, 0, 0] S8x64x256x256
  slices_S8x256x256x256_S8x64x256x256_0_64_0_0 : S8x256x256x256.Slices ![0, 64, 0, 0] S8x64x256x256
  slices_S8x256x256x256_S8x64x256x256_0_128_0_0 : S8x256x256x256.Slices ![0, 128, 0, 0] S8x64x256x256
  slices_S8x256x256x256_S8x64x256x256_0_192_0_0 : S8x256x256x256.Slices ![0, 192, 0, 0] S8x64x256x256

variable [Facts₀]

class Facts : Prop extends Facts₀ where

variable [Facts]
-- ==== Proof.HaarSpec.lean ====
/-
  The 2-D Haar transform of one 2×2 pixel block, and the layout of its four sub-bands.

  An image batch `x : [8, 64, 512, 512]` is cut into non-overlapping 2×2 blocks; block `(h, w)` of channel `ch` of
  sample `b` holds the pixels
      a = x[b, ch, 2h, 2w]     b = x[b, ch, 2h, 2w+1]
      c = x[b, ch, 2h+1, 2w]   d = x[b, ch, 2h+1, 2w+1].
  Its four coefficients are
      s = 0 :  ½ · (((a + b) + c) + d)        s = 1 :  ½ · (((a − b) + c) − d)
      s = 2 :  ½ · (((a + b) − c) − d)        s = 3 :  ½ · (((a − b) − c) + d),
  the sums taken in exactly this order, ½ the float `0x3F000000`.

  The coefficients are laid out channel-interleaved: coefficient `s` of channel `ch` sits at combined channel
  `4·ch + s` of a 256-channel array, and that array is cut into four contiguous quarters of 64 channels. So quarter
  `j`, local channel `k`, holds coefficient `k mod 4` of input channel `16·j + k / 4` (as `64·j + k = 4·(16·j + k/4) + k mod 4`).
  Everything here is stated for an arbitrary float instance: both programs apply the same operations in the same
  order, so no law of arithmetic is used.
-/
import Idealize.ShloMosaic.Lib.ValueIdxRank6

noncomputable section

namespace Cert.Haar

open Idealize.ShloMosaic Idealize.ShloMosaic.ValueIdx

variable {F : FTy → Type} [FloatOps F]

/-- The image batch's shape and a sub-band's. -/
abbrev Img : Shape := ⟨4, ![8, 64, 512, 512]⟩
abbrev Sub : Shape := ⟨4, ![8, 64, 256, 256]⟩
/-- The four quarters stacked on a new leading axis. -/
abbrev Stack : Shape := ⟨5, ![4, 8, 64, 256, 256]⟩

/-- The constant ½. -/
abbrev half : F .f32 := FloatOps.ofBits .f32 0x3F000000#32

/-- Coefficient `s mod 4` of the block with pixels `a b / c d`. -/
def band (s : Nat) (a b c d : F .f32) : F .f32 :=
  match s % 4 with
  | 0 => FloatOps.mulf half (FloatOps.addf (FloatOps.addf (FloatOps.addf a b) c) d)
  | 1 => FloatOps.mulf half (FloatOps.subf (FloatOps.addf (FloatOps.subf a b) c) d)
  | 2 => FloatOps.mulf half (FloatOps.subf (FloatOps.subf (FloatOps.addf a b) c) d)
  | _ => FloatOps.mulf half (FloatOps.addf (FloatOps.subf (FloatOps.subf a b) c) d)

/-- Only `s mod 4` matters. -/
theorem band_add_mul (k s : Nat) (a b c d : F .f32) : band (4 * k + s) a b c d = band s a b c d := by
  unfold band; rw [Nat.mul_add_mod]

theorem band_mod (s : Nat) (a b c d : F .f32) : band (s % 4) a b c d = band s a b c d := by
  unfold band; rw [Nat.mod_mod]

/-- Pixel `(hp, wp)` of block `(h, w)`. -/
def px (b : Fin 8) (ch : Fin 64) (h w : Fin 256) (hp wp : Fin 2) : Img.Idx :=
  ix4 b ch (⟨2 * h.val + hp.val, by have := h.isLt; have := hp.isLt; omega⟩ : Fin 512)
    (⟨2 * w.val + wp.val, by have := w.isLt; have := wp.isLt; omega⟩ : Fin 512)

/-- Coefficient `s mod 4` of block `(h, w)` of channel `ch` of sample `b`. -/
def coef (x : Img.Idx → F .f32) (s : Nat) (b : Fin 8) (ch : Fin 64) (h w : Fin 256) : F .f32 :=
  band s (x (px b ch h w 0 0)) (x (px b ch h w 0 1)) (x (px b ch h w 1 0)) (x (px b ch h w 1 1))

/-- The input channel behind local channel `k` of quarter `j`. -/
def chan (j : Fin 4) (k : Fin 64) : Fin 64 := ⟨16 * j.val + k.val / 4, by have := j.isLt; have := k.isLt; omega⟩

/-- Quarter `j` of the interleaved coefficients. -/
def quarter (x : Img.Idx → F .f32) (j : Fin 4) : Sub.Idx → F .f32 := fun i =>
  coef x (i 1).val (i 0) (chan j (i 1)) (i 2) (i 3)

/-- The four quarters, stacked. -/
def stacked (x : Img.Idx → F .f32) : Stack.Idx → F .f32 := fun o =>
  coef x (o 2).val (o 1) (chan (o 0) (o 2)) (o 3) (o 4)

/-- A quarter is its slab of the stack. -/
theorem stacked_apply (x : Img.Idx → F .f32) (j : Fin 4) (i : Sub.Idx) :
    stacked x (ix5 j (i 0) (i 1) (i 2) (i 3)) = quarter x j i := rfl

end Cert.Haar

end
-- ==== Proof.KernelBlock.lean ====
/-
  One grid point of the kernel: the 16-channel output block as one function of the point's input block.

  At a point the kernel holds a block `x0 : [2, 2, 1, 4, 256, 256]` of the parity-separated image — axes
  (row parity, column parity, sample, channel within the group of four, block row, block column) — and fills a block
  `[1, 1, 16, 256, 256]` of the stacked coefficients: local channel `k = 4·cl + s` receives coefficient `s` of the
  group's channel `cl`, computed from the four parity planes of that channel. Sixteen stores, one per `k`, each a
  256×256 plane; together they tile the block, so the block after the body is the one function `blockOut x0`.
-/
import proofs.«159473_j43954695308070_2_alg».proof.Proof.Gen.KernelIdeal.Frame
import proofs.«159473_j43954695308070_2_alg».proof.Proof.HaarSpec
import Idealize.ShloMosaic.Lib.Pipeline.Value

noncomputable section

namespace Cert.Haar.Kernel

open Cert.KernelIdeal Cert.KernelIdeal.Gen
open Idealize.ShloMosaic Idealize.ShloMosaic.ValueIdx Cert.Haar

variable {F : FTy → Type} [FloatOps F]

/-- Coefficient `s mod 4` of channel `cl` of the group, at block position `(p, q)`, from the input block's four parity planes. -/
def blockCS (x0 : Vec F S2x2x1x4x256x256 .f32) (cl : Fin 4) (s : Nat) (p q : Fin 256) : F .f32 :=
  band s (x0 (ix6 (0 : Fin 2) (0 : Fin 2) (0 : Fin 1) cl p q)) (x0 (ix6 (0 : Fin 2) (1 : Fin 2) (0 : Fin 1) cl p q))
    (x0 (ix6 (1 : Fin 2) (0 : Fin 2) (0 : Fin 1) cl p q)) (x0 (ix6 (1 : Fin 2) (1 : Fin 2) (0 : Fin 1) cl p q))

/-- Local channel `k` of the output block is coefficient `k mod 4` of the group's channel `k / 4`. -/
def blockK (x0 : Vec F S2x2x1x4x256x256 .f32) (k : Fin 16) (p q : Fin 256) : F .f32 :=
  blockCS x0 ⟨k.val / 4, by have := k.isLt; omega⟩ k.val p q

/-- What the body leaves in the output block, as one function of the input block. -/
def blockOut (x0 : Vec F S2x2x1x4x256x256 .f32) : S1x1x16x256x256.Idx → F .f32 := fun y => blockK x0 (y 2) (y 3) (y 4)

theorem blockK_mk (x0 : Vec F S2x2x1x4x256x256 .f32) (cl s : Fin 4) (h : 4 * cl.val + s.val < 16) (p q : Fin 256) :
    blockK x0 ⟨4 * cl.val + s.val, h⟩ p q = blockCS x0 cl s.val p q := by
  unfold blockK
  have e : (⟨(4 * cl.val + s.val) / 4, by omega⟩ : Fin 4) = cl := Fin.ext (by show (4 * cl.val + s.val) / 4 = cl.val; have := s.isLt; omega)
  show blockCS x0 ⟨(4 * cl.val + s.val) / 4, _⟩ (4 * cl.val + s.val) p q = _
  rw [e]
  unfold blockCS
  rw [band_add_mul]

/-! ## A loaded plane, a stored plane -/

/-- A 256×256 plane loaded through a unit rectangle at `(hp, wp, 0, cl, 0, 0)` and viewed `[256, 256]`. -/
def tileOf (v : Vec F S1x1x1x1x256x256 .f32) : FVec F S256x256 .f32 := shapeCast S256x256 v shapeCasts_S1x1x1x1x256x256_S256x256

theorem tile_read (x0 : Vec F S2x2x1x4x256x256 .f32) (off : Fin 6 → Nat)
    (inb : ∀ a, off a + S1x1x1x1x256x256.size a ≤ S2x2x1x4x256x256.size a) (hp wp : Fin 2) (cl : Fin 4)
    (hoff : off = ![hp.val, wp.val, 0, cl.val, 0, 0]) (p q : Fin 256) :
    tileOf (View.ld x0 (Rect.unit (s := S2x2x1x4x256x256) off S1x1x1x1x256x256.size inb)) (ix2 p q) = x0 (ix6 hp wp (0 : Fin 1) cl p q) := by
  subst hoff
  unfold tileOf
  refine (shapeCast_apply _ _ (ix2 p q) (ix6 (0 : Fin 1) (0 : Fin 1) (0 : Fin 1) (0 : Fin 1) p q) ?_).trans ?_
  · rw [Shape.rowMajor_val_six, Shape.rowMajor_val_two]
    show ((((0 * 1 + 0) * 1 + 0) * 1 + 0) * 256 + p.val) * 256 + q.val = p.val * 256 + q.val
    omega
  · refine congrArg x0 (funext fun a => Fin.ext ?_)
    match a with
    | ⟨0, _⟩ => show hp.val + 1 * 0 = hp.val; omega
    | ⟨1, _⟩ => show wp.val + 1 * 0 = wp.val; omega
    | ⟨2, _⟩ => show 0 + 1 * 0 = 0; rfl
    | ⟨3, _⟩ => show cl.val + 1 * 0 = cl.val; omega
    | ⟨4, _⟩ => show 0 + 1 * p.val = p.val; omega
    | ⟨5, _⟩ => show 0 + 1 * q.val = q.val; omega

/-- A `[256, 256]` plane stored as a `[1, 1, 1, 256, 256]` piece. -/
theorem plane_write (v : FVec F S256x256 .f32) (hc : S256x256.ShapeCasts S1x1x1x256x256) (p q : Fin 256) :
    shapeCast S1x1x1x256x256 v hc (ix5 (0 : Fin 1) (0 : Fin 1) (0 : Fin 1) p q) = v (ix2 p q) :=
  shapeCast_apply v hc _ (ix2 p q) (by
    rw [Shape.rowMajor_val_two, Shape.rowMajor_val_five]
    show p.val * 256 + q.val = (((0 * 1 + 0) * 1 + 0) * 256 + p.val) * 256 + q.val
    omega)

/-- The stored piece of coefficient `s`: the band of four planes, as a `[1, 1, 1, 256, 256]` piece. -/
def bandTile (s : Nat) (A B C D : FVec F S256x256 .f32) : FVec F S1x1x1x256x256 .f32 :=
  shapeCast S1x1x1x256x256 (fun j => band s (A j) (B j) (C j) (D j)) shapeCasts_S256x256_S1x1x1x256x256

/-- Every piece of a `[1, 1, 1, 256, 256]` index is `(0, 0, 0, p, q)`. -/
theorem piece_idx (x : S1x1x1x256x256.Idx) : ∃ p q : Fin 256, x = ix5 (0 : Fin 1) (0 : Fin 1) (0 : Fin 1) p q :=
  ⟨x 3, x 4, funext fun a => by
    match a with
    | ⟨0, _⟩ => exact Fin.ext (by have h : (x 0).val < 1 := (x 0).isLt; show (x 0).val = 0; omega)
    | ⟨1, _⟩ => exact Fin.ext (by have h : (x 1).val < 1 := (x 1).isLt; show (x 1).val = 0; omega)
    | ⟨2, _⟩ => exact Fin.ext (by have h : (x 2).val < 1 := (x 2).isLt; show (x 2).val = 0; omega)
    | ⟨3, _⟩ => rfl
    | ⟨4, _⟩ => rfl⟩

/-- The store of coefficient `s` of channel `cl`: its payload at a piece index is the block function at the block index
    under the piece, local channel `4·cl + s`. -/
theorem piece_eq (x0 : Vec F S2x2x1x4x256x256 .f32) (cl s : Fin 4)
    (offA offB offC offD : Fin 6 → Nat)
    (inbA : ∀ a, offA a + S1x1x1x1x256x256.size a ≤ S2x2x1x4x256x256.size a)
    (inbB : ∀ a, offB a + S1x1x1x1x256x256.size a ≤ S2x2x1x4x256x256.size a)
    (inbC : ∀ a, offC a + S1x1x1x1x256x256.size a ≤ S2x2x1x4x256x256.size a)
    (inbD : ∀ a, offD a + S1x1x1x1x256x256.size a ≤ S2x2x1x4x256x256.size a)
    (offO : Fin 5 → Nat) (inbO : ∀ a, offO a + S1x1x1x256x256.size a ≤ S1x1x16x256x256.size a)
    (hA : offA = ![(0 : Fin 2).val, (0 : Fin 2).val, 0, cl.val, 0, 0]) (hB : offB = ![(0 : Fin 2).val, (1 : Fin 2).val, 0, cl.val, 0, 0])
    (hC : offC = ![(1 : Fin 2).val, (0 : Fin 2).val, 0, cl.val, 0, 0]) (hD : offD = ![(1 : Fin 2).val, (1 : Fin 2).val, 0, cl.val, 0, 0])
    (hO : offO = ![0, 0, 4 * cl.val + s.val, 0, 0]) (x : S1x1x1x256x256.Idx) :
    bandTile s.val (tileOf (View.ld x0 (Rect.unit (s := S2x2x1x4x256x256) offA S1x1x1x1x256x256.size inbA)))
        (tileOf (View.ld x0 (Rect.unit (s := S2x2x1x4x256x256) offB S1x1x1x1x256x256.size inbB)))
        (tileOf (View.ld x0 (Rect.unit (s := S2x2x1x4x256x256) offC S1x1x1x1x256x256.size inbC)))
        (tileOf (View.ld x0 (Rect.unit (s := S2x2x1x4x256x256) offD S1x1x1x1x256x256.size inbD))) x
      = blockOut x0 ((Rect.unit (s := S1x1x16x256x256) offO S1x1x1x256x256.size inbO).emb x) := by
  obtain ⟨p, q, rfl⟩ := piece_idx x
  have hk : 4 * cl.val + s.val < 16 := by have := cl.isLt; have := s.isLt; omega
  have hemb : (Rect.unit (s := S1x1x16x256x256) offO S1x1x1x256x256.size inbO).emb (ix5 (0 : Fin 1) (0 : Fin 1) (0 : Fin 1) p q)
      = ix5 (0 : Fin 1) (0 : Fin 1) (⟨4 * cl.val + s.val, hk⟩ : Fin 16) p q := by
    subst hO
    funext a
    apply Fin.ext
    match a with
    | ⟨0, _⟩ => show 0 + 1 * 0 = 0; rfl
    | ⟨1, _⟩ => show 0 + 1 * 0 = 0; rfl
    | ⟨2, _⟩ => show (4 * cl.val + s.val) + 1 * 0 = 4 * cl.val + s.val; omega
    | ⟨3, _⟩ => show 0 + 1 * p.val = p.val; omega
    | ⟨4, _⟩ => show 0 + 1 * q.val = q.val; omega
  rw [hemb]
  show _ = blockK x0 ⟨4 * cl.val + s.val, hk⟩ p q
  rw [blockK_mk]
  unfold bandTile
  refine (plane_write _ _ p q).trans ?_
  show band s.val (tileOf (View.ld x0 (Rect.unit (s := S2x2x1x4x256x256) offA S1x1x1x1x256x256.size inbA)) (ix2 p q))
      (tileOf (View.ld x0 (Rect.unit (s := S2x2x1x4x256x256) offB S1x1x1x1x256x256.size inbB)) (ix2 p q))
      (tileOf (View.ld x0 (Rect.unit (s := S2x2x1x4x256x256) offC S1x1x1x1x256x256.size inbC)) (ix2 p q))
      (tileOf (View.ld x0 (Rect.unit (s := S2x2x1x4x256x256) offD S1x1x1x1x256x256.size inbD)) (ix2 p q)) = _
  rw [tile_read x0 offA inbA 0 0 cl hA p q, tile_read x0 offB inbB 0 1 cl hB p q,
    tile_read x0 offC inbC 1 0 cl hC p q, tile_read x0 offD inbD 1 1 cl hD p q]
  rfl

/-! ## The sixteen printed payloads, each the band of four loaded planes -/

theorem pay_c15 (x0 : Vec F S2x2x1x4x256x256 .f32) :
    k0_pay1 (k0_pay36 (k0_pay29 (View.ld x0 r0_24)) (k0_pay30 (View.ld x0 r0_25)) (View.ld x0 r0_26) (View.ld x0 r0_27)) (Scalar.ofBits .f32 0x3F000000#32)
      = bandTile 3 (tileOf (View.ld x0 r0_24)) (tileOf (View.ld x0 r0_25)) (tileOf (View.ld x0 r0_26)) (tileOf (View.ld x0 r0_27)) := rfl
theorem pay_c14 (x0 : Vec F S2x2x1x4x256x256 .f32) :
    k0_pay35 (k0_pay29 (View.ld x0 r0_24)) (k0_pay30 (View.ld x0 r0_25)) (View.ld x0 r0_26) (View.ld x0 r0_27)
      = bandTile 2 (tileOf (View.ld x0 r0_24)) (tileOf (View.ld x0 r0_25)) (tileOf (View.ld x0 r0_26)) (tileOf (View.ld x0 r0_27)) := rfl
theorem pay_c13 (x0 : Vec F S2x2x1x4x256x256 .f32) :
    k0_pay34 (k0_pay29 (View.ld x0 r0_24)) (k0_pay30 (View.ld x0 r0_25)) (View.ld x0 r0_26) (View.ld x0 r0_27)
      = bandTile 1 (tileOf (View.ld x0 r0_24)) (tileOf (View.ld x0 r0_25)) (tileOf (View.ld x0 r0_26)) (tileOf (View.ld x0 r0_27)) := rfl
theorem pay_c12 (x0 : Vec F S2x2x1x4x256x256 .f32) :
    k0_pay33 (k0_pay29 (View.ld x0 r0_24)) (k0_pay30 (View.ld x0 r0_25)) (View.ld x0 r0_26) (View.ld x0 r0_27)
      = bandTile 0 (tileOf (View.ld x0 r0_24)) (tileOf (View.ld x0 r0_25)) (tileOf (View.ld x0 r0_26)) (tileOf (View.ld x0 r0_27)) := rfl
theorem pay_c11 (x0 : Vec F S2x2x1x4x256x256 .f32) :
    k0_pay28 (k0_pay20 (View.ld x0 r0_16)) (k0_pay21 (View.ld x0 r0_17)) (k0_pay22 (View.ld x0 r0_18)) (k0_pay23 (View.ld x0 r0_19))
      = bandTile 3 (tileOf (View.ld x0 r0_16)) (tileOf (View.ld x0 r0_17)) (tileOf (View.ld x0 r0_18)) (tileOf (View.ld x0 r0_19)) := rfl
theorem pay_c10 (x0 : Vec F S2x2x1x4x256x256 .f32) :
    k0_pay27 (k0_pay20 (View.ld x0 r0_16)) (k0_pay21 (View.ld x0 r0_17)) (k0_pay22 (View.ld x0 r0_18)) (k0_pay23 (View.ld x0 r0_19))
      = bandTile 2 (tileOf (View.ld x0 r0_16)) (tileOf (View.ld x0 r0_17)) (tileOf (View.ld x0 r0_18)) (tileOf (View.ld x0 r0_19)) := rfl
theorem pay_c9 (x0 : Vec F S2x2x1x4x256x256 .f32) :
    k0_pay26 (k0_pay25 (View.ld x0 r0_16) (View.ld x0 r0_17) (View.ld x0 r0_18) (View.ld x0 r0_19))
      = bandTile 1 (tileOf (View.ld x0 r0_16)) (tileOf (View.ld x0 r0_17)) (tileOf (View.ld x0 r0_18)) (tileOf (View.ld x0 r0_19)) := rfl
theorem pay_c8 (x0 : Vec F S2x2x1x4x256x256 .f32) :
    k0_pay24 (View.ld x0 r0_16) (View.ld x0 r0_17) (View.ld x0 r0_18) (View.ld x0 r0_19)
      = bandTile 0 (tileOf (View.ld x0 r0_16)) (tileOf (View.ld x0 r0_17)) (tileOf (View.ld x0 r0_18)) (tileOf (View.ld x0 r0_19)) := rfl
theorem pay_c7 (x0 : Vec F S2x2x1x4x256x256 .f32) :
    k0_pay19 (k0_pay18 (k0_pay11 (View.ld x0 r0_8)) (k0_pay12 (View.ld x0 r0_9)) (k0_pay13 (View.ld x0 r0_10)) (View.ld x0 r0_11))
      = bandTile 3 (tileOf (View.ld x0 r0_8)) (tileOf (View.ld x0 r0_9)) (tileOf (View.ld x0 r0_10)) (tileOf (View.ld x0 r0_11)) := rfl
theorem pay_c6 (x0 : Vec F S2x2x1x4x256x256 .f32) :
    k0_pay17 (k0_pay11 (View.ld x0 r0_8)) (k0_pay12 (View.ld x0 r0_9)) (k0_pay13 (View.ld x0 r0_10)) (View.ld x0 r0_11)
      = bandTile 2 (tileOf (View.ld x0 r0_8)) (tileOf (View.ld x0 r0_9)) (tileOf (View.ld x0 r0_10)) (tileOf (View.ld x0 r0_11)) := rfl
theorem pay_c5 (x0 : Vec F S2x2x1x4x256x256 .f32) :
    k0_pay16 (k0_pay11 (View.ld x0 r0_8)) (k0_pay12 (View.ld x0 r0_9)) (k0_pay13 (View.ld x0 r0_10)) (View.ld x0 r0_11)
      = bandTile 1 (tileOf (View.ld x0 r0_8)) (tileOf (View.ld x0 r0_9)) (tileOf (View.ld x0 r0_10)) (tileOf (View.ld x0 r0_11)) := rfl
theorem pay_c4 (x0 : Vec F S2x2x1x4x256x256 .f32) :
    k0_pay15 (k0_pay11 (View.ld x0 r0_8)) (k0_pay12 (View.ld x0 r0_9)) (k0_pay13 (View.ld x0 r0_10)) (View.ld x0 r0_11)
      = bandTile 0 (tileOf (View.ld x0 r0_8)) (tileOf (View.ld x0 r0_9)) (tileOf (View.ld x0 r0_10)) (tileOf (View.ld x0 r0_11)) := rfl
theorem pay_c3 (x0 : Vec F S2x2x1x4x256x256 .f32) :
    k0_pay10 (k0_pay2 (View.ld x0 r0_0)) (k0_pay3 (View.ld x0 r0_1)) (k0_pay4 (View.ld x0 r0_2)) (k0_pay5 (View.ld x0 r0_3))
      = bandTile 3 (tileOf (View.ld x0 r0_0)) (tileOf (View.ld x0 r0_1)) (tileOf (View.ld x0 r0_2)) (tileOf (View.ld x0 r0_3)) := rfl
theorem pay_c2 (x0 : Vec F S2x2x1x4x256x256 .f32) :
    k0_pay9 (k0_pay2 (View.ld x0 r0_0)) (k0_pay3 (View.ld x0 r0_1)) (k0_pay4 (View.ld x0 r0_2)) (k0_pay5 (View.ld x0 r0_3))
      = bandTile 2 (tileOf (View.ld x0 r0_0)) (tileOf (View.ld x0 r0_1)) (tileOf (View.ld x0 r0_2)) (tileOf (View.ld x0 r0_3)) := rfl
theorem pay_c1 (x0 : Vec F S2x2x1x4x256x256 .f32) :
    k0_pay8 (k0_pay7 (View.ld x0 r0_0) (View.ld x0 r0_1) (View.ld x0 r0_2) (View.ld x0 r0_3))
      = bandTile 1 (tileOf (View.ld x0 r0_0)) (tileOf (View.ld x0 r0_1)) (tileOf (View.ld x0 r0_2)) (tileOf (View.ld x0 r0_3)) := rfl
theorem pay_c0 (x0 : Vec F S2x2x1x4x256x256 .f32) :
    k0_pay6 (View.ld x0 r0_0) (View.ld x0 r0_1) (View.ld x0 r0_2) (View.ld x0 r0_3)
      = bandTile 0 (tileOf (View.ld x0 r0_0)) (tileOf (View.ld x0 r0_1)) (tileOf (View.ld x0 r0_2)) (tileOf (View.ld x0 r0_3)) := rfl

/-! ## The block -/

/-- The sixteen stores are sixteen tiles of `blockOut x0`, and they cover the block. -/
theorem block_eq (x0 : Vec F S2x2x1x4x256x256 .f32) : out0_1 x0 = blockOut x0 := by
  funext y
  unfold out0_1
  refine View.canon_apply_of_pieces (blockOut x0) _ ?_ y (cover0_1 _ _ _ _ _ _ _ _ _ _ _ _ _ _ _ _ y)
  intro pc hpc
  simp only [List.mem_cons, List.mem_nil_iff, or_false] at hpc
  rcases hpc with rfl | rfl | rfl | rfl | rfl | rfl | rfl | rfl | rfl | rfl | rfl | rfl | rfl | rfl | rfl | rfl
  · intro x
    exact (congrFun (pay_c15 x0) x).trans (piece_eq x0 3 3 ![0, 0, 0, 3, 0, 0] ![0, 1, 0, 3, 0, 0] ![1, 0, 0, 3, 0, 0] ![1, 1, 0, 3, 0, 0]
      inb_S2x2x1x4x256x256_S1x1x1x1x256x256_0_0_0_3_0_0
      inb_S2x2x1x4x256x256_S1x1x1x1x256x256_0_1_0_3_0_0
      inb_S2x2x1x4x256x256_S1x1x1x1x256x256_1_0_0_3_0_0
      inb_S2x2x1x4x256x256_S1x1x1x1x256x256_1_1_0_3_0_0
      ![0, 0, 15, 0, 0] inb_S1x1x16x256x256_S1x1x1x256x256_0_0_15_0_0 rfl rfl rfl rfl rfl x)
  · intro x
    exact (congrFun (pay_c14 x0) x).trans (piece_eq x0 3 2 ![0, 0, 0, 3, 0, 0] ![0, 1, 0, 3, 0, 0] ![1, 0, 0, 3, 0, 0] ![1, 1, 0, 3, 0, 0]
      inb_S2x2x1x4x256x256_S1x1x1x1x256x256_0_0_0_3_0_0
      inb_S2x2x1x4x256x256_S1x1x1x1x256x256_0_1_0_3_0_0
      inb_S2x2x1x4x256x256_S1x1x1x1x256x256_1_0_0_3_0_0
      inb_S2x2x1x4x256x256_S1x1x1x1x256x256_1_1_0_3_0_0
      ![0, 0, 14, 0, 0] inb_S1x1x16x256x256_S1x1x1x256x256_0_0_14_0_0 rfl rfl rfl rfl rfl x)
  · intro x
    exact (congrFun (pay_c13 x0) x).trans (piece_eq x0 3 1 ![0, 0, 0, 3, 0, 0] ![0, 1, 0, 3, 0, 0] ![1, 0, 0, 3, 0, 0] ![1, 1, 0, 3, 0, 0]
      inb_S2x2x1x4x256x256_S1x1x1x1x256x256_0_0_0_3_0_0
      inb_S2x2x1x4x256x256_S1x1x1x1x256x256_0_1_0_3_0_0
      inb_S2x2x1x4x256x256_S1x1x1x1x256x256_1_0_0_3_0_0
      inb_S2x2x1x4x256x256_S1x1x1x1x256x256_1_1_0_3_0_0
      ![0, 0, 13, 0, 0] inb_S1x1x16x256x256_S1x1x1x256x256_0_0_13_0_0 rfl rfl rfl rfl rfl x)
  · intro x
    exact (congrFun (pay_c12 x0) x).trans (piece_eq x0 3 0 ![0, 0, 0, 3, 0, 0] ![0, 1, 0, 3, 0, 0] ![1, 0, 0, 3, 0, 0] ![1, 1, 0, 3, 0, 0]
      inb_S2x2x1x4x256x256_S1x1x1x1x256x256_0_0_0_3_0_0
      inb_S2x2x1x4x256x256_S1x1x1x1x256x256_0_1_0_3_0_0
      inb_S2x2x1x4x256x256_S1x1x1x1x256x256_1_0_0_3_0_0
      inb_S2x2x1x4x256x256_S1x1x1x1x256x256_1_1_0_3_0_0
      ![0, 0, 12, 0, 0] inb_S1x1x16x256x256_S1x1x1x256x256_0_0_12_0_0 rfl rfl rfl rfl rfl x)
  · intro x
    exact (congrFun (pay_c11 x0) x).trans (piece_eq x0 2 3 ![0, 0, 0, 2, 0, 0] ![0, 1, 0, 2, 0, 0] ![1, 0, 0, 2, 0, 0] ![1, 1, 0, 2, 0, 0]
      inb_S2x2x1x4x256x256_S1x1x1x1x256x256_0_0_0_2_0_0
      inb_S2x2x1x4x256x256_S1x1x1x1x256x256_0_1_0_2_0_0
      inb_S2x2x1x4x256x256_S1x1x1x1x256x256_1_0_0_2_0_0
      inb_S2x2x1x4x256x256_S1x1x1x1x256x256_1_1_0_2_0_0
      ![0, 0, 11, 0, 0] inb_S1x1x16x256x256_S1x1x1x256x256_0_0_11_0_0 rfl rfl rfl rfl rfl x)
  · intro x
    exact (congrFun (pay_c10 x0) x).trans (piece_eq x0 2 2 ![0, 0, 0, 2, 0, 0] ![0, 1, 0, 2, 0, 0] ![1, 0, 0, 2, 0, 0] ![1, 1, 0, 2, 0, 0]
      inb_S2x2x1x4x256x256_S1x1x1x1x256x256_0_0_0_2_0_0
      inb_S2x2x1x4x256x256_S1x1x1x1x256x256_0_1_0_2_0_0
      inb_S2x2x1x4x256x256_S1x1x1x1x256x256_1_0_0_2_0_0
      inb_S2x2x1x4x256x256_S1x1x1x1x256x256_1_1_0_2_0_0
      ![0, 0, 10, 0, 0] inb_S1x1x16x256x256_S1x1x1x256x256_0_0_10_0_0 rfl rfl rfl rfl rfl x)
  · intro x
    exact (congrFun (pay_c9 x0) x).trans (piece_eq x0 2 1 ![0, 0, 0, 2, 0, 0] ![0, 1, 0, 2, 0, 0] ![1, 0, 0, 2, 0, 0] ![1, 1, 0, 2, 0, 0]
      inb_S2x2x1x4x256x256_S1x1x1x1x256x256_0_0_0_2_0_0
      inb_S2x2x1x4x256x256_S1x1x1x1x256x256_0_1_0_2_0_0
      inb_S2x2x1x4x256x256_S1x1x1x1x256x256_1_0_0_2_0_0
      inb_S2x2x1x4x256x256_S1x1x1x1x256x256_1_1_0_2_0_0
      ![0, 0, 9, 0, 0] inb_S1x1x16x256x256_S1x1x1x256x256_0_0_9_0_0 rfl rfl rfl rfl rfl x)
  · intro x
    exact (congrFun (pay_c8 x0) x).trans (piece_eq x0 2 0 ![0, 0, 0, 2, 0, 0] ![0, 1, 0, 2, 0, 0] ![1, 0, 0, 2, 0, 0] ![1, 1, 0, 2, 0, 0]
      inb_S2x2x1x4x256x256_S1x1x1x1x256x256_0_0_0_2_0_0
      inb_S2x2x1x4x256x256_S1x1x1x1x256x256_0_1_0_2_0_0
      inb_S2x2x1x4x256x256_S1x1x1x1x256x256_1_0_0_2_0_0
      inb_S2x2x1x4x256x256_S1x1x1x1x256x256_1_1_0_2_0_0
      ![0, 0, 8, 0, 0] inb_S1x1x16x256x256_S1x1x1x256x256_0_0_8_0_0 rfl rfl rfl rfl rfl x)
  · intro x
    exact (congrFun (pay_c7 x0) x).trans (piece_eq x0 1 3 ![0, 0, 0, 1, 0, 0] ![0, 1, 0, 1, 0, 0] ![1, 0, 0, 1, 0, 0] ![1, 1, 0, 1, 0, 0]
      inb_S2x2x1x4x256x256_S1x1x1x1x256x256_0_0_0_1_0_0
      inb_S2x2x1x4x256x256_S1x1x1x1x256x256_0_1_0_1_0_0
      inb_S2x2x1x4x256x256_S1x1x1x1x256x256_1_0_0_1_0_0
      inb_S2x2x1x4x256x256_S1x1x1x1x256x256_1_1_0_1_0_0
      ![0, 0, 7, 0, 0] inb_S1x1x16x256x256_S1x1x1x256x256_0_0_7_0_0 rfl rfl rfl rfl rfl x)
  · intro x
    exact (congrFun (pay_c6 x0) x).trans (piece_eq x0 1 2 ![0, 0, 0, 1, 0, 0] ![0, 1, 0, 1, 0, 0] ![1, 0, 0, 1, 0, 0] ![1, 1, 0, 1, 0, 0]
      inb_S2x2x1x4x256x256_S1x1x1x1x256x256_0_0_0_1_0_0
      inb_S2x2x1x4x256x256_S1x1x1x1x256x256_0_1_0_1_0_0
      inb_S2x2x1x4x256x256_S1x1x1x1x256x256_1_0_0_1_0_0
      inb_S2x2x1x4x256x256_S1x1x1x1x256x256_1_1_0_1_0_0
      ![0, 0, 6, 0, 0] inb_S1x1x16x256x256_S1x1x1x256x256_0_0_6_0_0 rfl rfl rfl rfl rfl x)
  · intro x
    exact (congrFun (pay_c5 x0) x).trans (piece_eq x0 1 1 ![0, 0, 0, 1, 0, 0] ![0, 1, 0, 1, 0, 0] ![1, 0, 0, 1, 0, 0] ![1, 1, 0, 1, 0, 0]
      inb_S2x2x1x4x256x256_S1x1x1x1x256x256_0_0_0_1_0_0
      inb_S2x2x1x4x256x256_S1x1x1x1x256x256_0_1_0_1_0_0
      inb_S2x2x1x4x256x256_S1x1x1x1x256x256_1_0_0_1_0_0
      inb_S2x2x1x4x256x256_S1x1x1x1x256x256_1_1_0_1_0_0
      ![0, 0, 5, 0, 0] inb_S1x1x16x256x256_S1x1x1x256x256_0_0_5_0_0 rfl rfl rfl rfl rfl x)
  · intro x
    exact (congrFun (pay_c4 x0) x).trans (piece_eq x0 1 0 ![0, 0, 0, 1, 0, 0] ![0, 1, 0, 1, 0, 0] ![1, 0, 0, 1, 0, 0] ![1, 1, 0, 1, 0, 0]
      inb_S2x2x1x4x256x256_S1x1x1x1x256x256_0_0_0_1_0_0
      inb_S2x2x1x4x256x256_S1x1x1x1x256x256_0_1_0_1_0_0
      inb_S2x2x1x4x256x256_S1x1x1x1x256x256_1_0_0_1_0_0
      inb_S2x2x1x4x256x256_S1x1x1x1x256x256_1_1_0_1_0_0
      ![0, 0, 4, 0, 0] inb_S1x1x16x256x256_S1x1x1x256x256_0_0_4_0_0 rfl rfl rfl rfl rfl x)
  · intro x
    exact (congrFun (pay_c3 x0) x).trans (piece_eq x0 0 3 ![0, 0, 0, 0, 0, 0] ![0, 1, 0, 0, 0, 0] ![1, 0, 0, 0, 0, 0] ![1, 1, 0, 0, 0, 0]
      inb_S2x2x1x4x256x256_S1x1x1x1x256x256_0_0_0_0_0_0
      inb_S2x2x1x4x256x256_S1x1x1x1x256x256_0_1_0_0_0_0
      inb_S2x2x1x4x256x256_S1x1x1x1x256x256_1_0_0_0_0_0
      inb_S2x2x1x4x256x256_S1x1x1x1x256x256_1_1_0_0_0_0
      ![0, 0, 3, 0, 0] inb_S1x1x16x256x256_S1x1x1x256x256_0_0_3_0_0 rfl rfl rfl rfl rfl x)
  · intro x
    exact (congrFun (pay_c2 x0) x).trans (piece_eq x0 0 2 ![0, 0, 0, 0, 0, 0] ![0, 1, 0, 0, 0, 0] ![1, 0, 0, 0, 0, 0] ![1, 1, 0, 0, 0, 0]
      inb_S2x2x1x4x256x256_S1x1x1x1x256x256_0_0_0_0_0_0
      inb_S2x2x1x4x256x256_S1x1x1x1x256x256_0_1_0_0_0_0
      inb_S2x2x1x4x256x256_S1x1x1x1x256x256_1_0_0_0_0_0
      inb_S2x2x1x4x256x256_S1x1x1x1x256x256_1_1_0_0_0_0
      ![0, 0, 2, 0, 0] inb_S1x1x16x256x256_S1x1x1x256x256_0_0_2_0_0 rfl rfl rfl rfl rfl x)
  · intro x
    exact (congrFun (pay_c1 x0) x).trans (piece_eq x0 0 1 ![0, 0, 0, 0, 0, 0] ![0, 1, 0, 0, 0, 0] ![1, 0, 0, 0, 0, 0] ![1, 1, 0, 0, 0, 0]
      inb_S2x2x1x4x256x256_S1x1x1x1x256x256_0_0_0_0_0_0
      inb_S2x2x1x4x256x256_S1x1x1x1x256x256_0_1_0_0_0_0
      inb_S2x2x1x4x256x256_S1x1x1x1x256x256_1_0_0_0_0_0
      inb_S2x2x1x4x256x256_S1x1x1x1x256x256_1_1_0_0_0_0
      ![0, 0, 1, 0, 0] inb_S1x1x16x256x256_S1x1x1x256x256_0_0_1_0_0 rfl rfl rfl rfl rfl x)
  · intro x
    exact (congrFun (pay_c0 x0) x).trans (piece_eq x0 0 0 ![0, 0, 0, 0, 0, 0] ![0, 1, 0, 0, 0, 0] ![1, 0, 0, 0, 0, 0] ![1, 1, 0, 0, 0, 0]
      inb_S2x2x1x4x256x256_S1x1x1x1x256x256_0_0_0_0_0_0
      inb_S2x2x1x4x256x256_S1x1x1x1x256x256_0_1_0_0_0_0
      inb_S2x2x1x4x256x256_S1x1x1x1x256x256_1_0_0_0_0_0
      inb_S2x2x1x4x256x256_S1x1x1x1x256x256_1_1_0_0_0_0
      ![0, 0, 0, 0, 0] inb_S1x1x16x256x256_S1x1x1x256x256_0_0_0_0_0 rfl rfl rfl rfl rfl x)

end Cert.Haar.Kernel

end
-- ==== Proof.KernelArray.lean ====
/-
  The kernel's result array after all 128 grid points: the four quarters of the interleaved coefficients, stacked.

  Before the launch the image is viewed `[8, 64, 256, 2, 256, 2]` and transposed to `[2, 2, 8, 64, 256, 256]`
  (row parity, column parity, sample, channel, block row, block column): entry `(hp, wp, b, ch, h, w)` is pixel `(hp, wp)`
  of block `(h, w)`. Grid point `(j, b, g)` reads the block of sample `b`, channels `16·j + 4·g … + 3` (block index
  `4·j + g` on the channel axis, four channels a block) and writes the block of the stacked result at quarter `j`, sample
  `b`, local channels `16·g … 16·g + 15`. Local channel `16·g + k` of quarter `j` is coefficient `k mod 4` of input channel
  `16·j + (16·g + k)/4 = 16·j + 4·g + k/4`: the channel the point's block holds at position `k/4`. The 128 output
  blocks tile the stacked array.
-/
import proofs.«159473_j43954695308070_2_alg».proof.Proof.KernelBlock

noncomputable section

namespace Cert.Haar.Kernel

open Cert.KernelIdeal Cert.KernelIdeal.Gen
open Idealize.ShloMosaic Idealize.ShloMosaic.TcCoe Idealize.ShloMosaic.ValueIdx Idealize.ShloMosaic.Pipeline Idealize.SL.Sem Cert.Haar

variable {F : FTy → Type} [FloatOps F]
variable (m : (ℓ : Loc nD τ sig) → Buf (Elt F) ℓ)

/-! ## The parity-separated image the region finds -/

/-- The two host operations before the launch, as one term of the argument. -/
theorem quad_entry (c : Dev nD) :
    (V m c main_v1 : S2x2x8x64x256x256.Idx → Elt F .f32)
      = transpose S2x2x8x64x256x256 [3, 5, 0, 1, 2, 4]
          (shapeCast S8x64x256x2x256x2 (m ((c : Thread nD τ).loc main_arg0)) shapeCasts_S8x64x512x512_S8x64x256x2x256x2)
          transposes_S8x64x256x2x256x2_S2x2x8x64x256x256_3_5_0_1_2_4 := by
  show StableHlo.after hostOps0 (fun b => m (c, b)) (Proc.devRef .tc main_v1) = _
  after_results
  rfl

/-- Entry `(hp, wp, b, ch, h, w)` is pixel `(hp, wp)` of block `(h, w)` of channel `ch` of sample `b`. -/
theorem quad_apply (c : Dev nD) (hp wp : Fin 2) (b : Fin 8) (ch : Fin 64) (h w : Fin 256) :
    V m c main_v1 (ix6 hp wp b ch h w) = m ((c : Thread nD τ).loc main_arg0) (px b ch h w hp wp) := by
  rw [quad_entry]
  refine (transpose_apply _ _ _ (ix6 hp wp b ch h w) (ix6 b ch h hp w wp) ?_).trans ?_
  · intro a
    match a with
    | ⟨0, _⟩ => rfl
    | ⟨1, _⟩ => rfl
    | ⟨2, _⟩ => rfl
    | ⟨3, _⟩ => rfl
    | ⟨4, _⟩ => rfl
    | ⟨5, _⟩ => rfl
  · refine shapeCast_apply _ _ _ (px b ch h w hp wp) ?_
    rw [Shape.rowMajor_val_four, Shape.rowMajor_val_six]
    show ((b.val * 64 + ch.val) * 512 + (2 * h.val + hp.val)) * 512 + (2 * w.val + wp.val)
      = ((((b.val * 64 + ch.val) * 256 + h.val) * 2 + hp.val) * 256 + w.val) * 2 + wp.val
    omega

/-! ## The two index maps over the grid -/

/-- The input block index in terms of the output's, and the output's ranges: decided over the 128 points. -/
theorem idx_facts : ∀ t : Fin cfg0.N,
    win0_0.index t (0 : Fin 6) = 0 ∧ win0_0.index t (1 : Fin 6) = 0
    ∧ win0_0.index t (2 : Fin 6) = win0_1.index t (1 : Fin 5)
    ∧ win0_0.index t (3 : Fin 6) = 4 * win0_1.index t (0 : Fin 5) + win0_1.index t (2 : Fin 5)
    ∧ win0_0.index t (4 : Fin 6) = 0 ∧ win0_0.index t (5 : Fin 6) = 0
    ∧ win0_1.index t (0 : Fin 5) < 4 ∧ win0_1.index t (1 : Fin 5) < 8 ∧ win0_1.index t (2 : Fin 5) < 4
    ∧ win0_1.index t (3 : Fin 5) = 0 ∧ win0_1.index t (4 : Fin 5) = 0 :=
  (by decide +kernel : ∀ t : Fin grid0.N, _)

/-- Every (quarter, sample, channel group) is some point's output block. -/
theorem idx_onto : ∀ (j : Fin 4) (b : Fin 8) (g : Fin 4), ∃ t : Fin cfg0.N, win0_1.index t = ![j.val, b.val, g.val, 0, 0] :=
  (by decide +kernel : ∀ (j : Fin 4) (b : Fin 8) (g : Fin 4), ∃ t : Fin grid0.N, win0_1.index t = ![j.val, b.val, g.val, 0, 0])

/-! ## A point's input block, read -/

/-- At a point whose output block is `(j, b, g)`, position `(hp, wp, 0, cl, p, q)` of the input block is pixel `(hp, wp)`
    of block `(p, q)` of channel `16·j + 4·g + cl` of sample `b`. -/
theorem iblk_apply (c : Dev nD) (t : Fin cfg0.N) (j : Fin 4) (b : Fin 8) (g : Fin 4)
    (hj : win0_1.index t (0 : Fin 5) = j.val) (hb : win0_1.index t (1 : Fin 5) = b.val) (hg : win0_1.index t (2 : Fin 5) = g.val)
    (hp wp : Fin 2) (cl : Fin 4) (p q : Fin 256) (hch : 16 * j.val + 4 * g.val + cl.val < 64) :
    iblk m c 0 t (ix6 hp wp (0 : Fin 1) cl p q)
      = m ((c : Thread nD τ).loc main_arg0) (px b (⟨16 * j.val + 4 * g.val + cl.val, hch⟩ : Fin 64) p q hp wp) := by
  obtain ⟨e0, e1, e2, e3, e4, e5, -, -, -, -, -⟩ := idx_facts t
  show V m c main_v1 (((cfg0.win 0).blk t).view.emb (ix6 hp wp (0 : Fin 1) cl p q)) = _
  have e : ((cfg0.win 0).blk t).view.emb (ix6 hp wp (0 : Fin 1) cl p q)
      = ix6 hp wp b (⟨16 * j.val + 4 * g.val + cl.val, hch⟩ : Fin 64) p q := by
    funext a
    apply Fin.ext
    match a with
    | ⟨0, _⟩ => show win0_0.index t (0 : Fin 6) * 2 + 1 * hp.val = hp.val; omega
    | ⟨1, _⟩ => show win0_0.index t (1 : Fin 6) * 2 + 1 * wp.val = wp.val; omega
    | ⟨2, _⟩ => show win0_0.index t (2 : Fin 6) * 1 + 1 * 0 = b.val; omega
    | ⟨3, _⟩ => show win0_0.index t (3 : Fin 6) * 4 + 1 * cl.val = 16 * j.val + 4 * g.val + cl.val; omega
    | ⟨4, _⟩ => show win0_0.index t (4 : Fin 6) * 256 + 1 * p.val = p.val; omega
    | ⟨5, _⟩ => show win0_0.index t (5 : Fin 6) * 256 + 1 * q.val = q.val; omega
  rw [e, quad_apply]

/-! ## A block of the stack from a block of the image -/

/-- An input block holding channels `16·j + 4·g + cl` of sample `b` yields, at local channel `k`, the stack's entry at
    quarter `j`, sample `b`, local channel `16·g + k`. -/
theorem blockK_eq_stacked (X : Img.Idx → F .f32) (x0 : Vec F S2x2x1x4x256x256 .f32) (j : Fin 4) (b : Fin 8) (g : Fin 4)
    (hx0 : ∀ (hp wp : Fin 2) (cl : Fin 4) (p q : Fin 256) (hch : 16 * j.val + 4 * g.val + cl.val < 64),
      x0 (ix6 hp wp (0 : Fin 1) cl p q) = X (px b (⟨16 * j.val + 4 * g.val + cl.val, hch⟩ : Fin 64) p q hp wp))
    (k : Fin 16) (p q : Fin 256) (hk : 16 * g.val + k.val < 64) :
    blockK x0 k p q = stacked X (ix5 j b (⟨16 * g.val + k.val, hk⟩ : Fin 64) p q) := by
  have hj := j.isLt
  have hg := g.isLt
  have hkk := k.isLt
  have hch : 16 * j.val + 4 * g.val + k.val / 4 < 64 := by omega
  unfold blockK blockCS
  rw [hx0 0 0 _ p q hch, hx0 0 1 _ p q hch, hx0 1 0 _ p q hch, hx0 1 1 _ p q hch]
  show _ = coef X (16 * g.val + k.val) b (chan j ⟨16 * g.val + k.val, hk⟩) p q
  have e : chan j (⟨16 * g.val + k.val, hk⟩ : Fin 64) = (⟨16 * j.val + 4 * g.val + k.val / 4, hch⟩ : Fin 64) :=
    Fin.ext (by show 16 * j.val + (16 * g.val + k.val) / 4 = 16 * j.val + 4 * g.val + k.val / 4; omega)
  rw [e]
  unfold coef
  have hs : 16 * g.val + k.val = 4 * (4 * g.val) + k.val := by omega
  rw [hs, band_add_mul]

/-! ## What a point writes back, the cover, the array -/

/-- Point `t` writes back block `t` of the stacked coefficients of the argument. -/
theorem flushed_eq (c : Dev nD) (t : Fin cfg0.N) :
    (dats m 0 c).flushed 1 t
      = ((cfg0.win 1).blk t).view.read (Elt F) (stacked (m ((c : Thread nD τ).loc main_arg0))) := by
  show (cfg0.win 1).cut (grid0.coords t) ((dats m 0 c).after 1 t) = _
  rw [after0_1, block_eq]
  obtain ⟨-, -, -, -, -, -, l0, l1, l2, z3, z4⟩ := idx_facts t
  funext y
  have hy2 : (y 2).val < 16 := (y 2).isLt
  have hy3 : (y 3).val < 256 := (y 3).isLt
  have hy4 : (y 4).val < 256 := (y 4).isLt
  show blockK (iblk m c 0 t) ⟨(y 2).val, hy2⟩ ⟨(y 3).val, hy3⟩ ⟨(y 4).val, hy4⟩
    = stacked (m ((c : Thread nD τ).loc main_arg0)) (((cfg0.win 1).blk t).view.emb y)
  have hk : 16 * win0_1.index t (2 : Fin 5) + (y 2).val < 64 := by omega
  have e : ((cfg0.win 1).blk t).view.emb y
      = ix5 (⟨win0_1.index t (0 : Fin 5), l0⟩ : Fin 4) (⟨win0_1.index t (1 : Fin 5), l1⟩ : Fin 8)
          (⟨16 * (⟨win0_1.index t (2 : Fin 5), l2⟩ : Fin 4).val + (⟨(y 2).val, hy2⟩ : Fin 16).val, hk⟩ : Fin 64)
          (⟨(y 3).val, hy3⟩ : Fin 256) (⟨(y 4).val, hy4⟩ : Fin 256) := by
    funext a
    apply Fin.ext
    match a with
    | ⟨0, _⟩ => show win0_1.index t (0 : Fin 5) * 1 + 1 * (y 0).val = win0_1.index t (0 : Fin 5); have h : (y 0).val < 1 := (y 0).isLt; omega
    | ⟨1, _⟩ => show win0_1.index t (1 : Fin 5) * 1 + 1 * (y 1).val = win0_1.index t (1 : Fin 5); have h : (y 1).val < 1 := (y 1).isLt; omega
    | ⟨2, _⟩ => show win0_1.index t (2 : Fin 5) * 16 + 1 * (y 2).val = 16 * win0_1.index t (2 : Fin 5) + (y 2).val; omega
    | ⟨3, _⟩ => show win0_1.index t (3 : Fin 5) * 256 + 1 * (y 3).val = (y 3).val; omega
    | ⟨4, _⟩ => show win0_1.index t (4 : Fin 5) * 256 + 1 * (y 4).val = (y 4).val; omega
  rw [e]
  exact blockK_eq_stacked (m ((c : Thread nD τ).loc main_arg0)) (iblk m c 0 t) ⟨win0_1.index t (0 : Fin 5), l0⟩
    ⟨win0_1.index t (1 : Fin 5), l1⟩ ⟨win0_1.index t (2 : Fin 5), l2⟩
    (fun hp wp cl p q hch => iblk_apply m c t _ _ _ rfl rfl rfl hp wp cl p q hch) _ _ _ hk

/-- An index of the stacked array is in point `t`'s block iff each coordinate is in the block's range on its axis. -/
theorem mem_blk (t : Fin cfg0.N) (i : S4x8x64x256x256.Idx) :
    i ∈ ((cfg0.win 1).blk t).view.set ↔ ∀ a : Fin 5, win0_1.index t a * S1x1x16x256x256.size a ≤ (i a).val
      ∧ (i a).val < win0_1.index t a * S1x1x16x256x256.size a + S1x1x16x256x256.size a := by
  show i ∈ ((View.whole main_v2).slice (win0_1.rect t)).set ↔ _
  rw [View.set_slice_whole, Rect.mem_set_unit]
  exact Iff.rfl

/-- The 128 output blocks tile the stacked array. -/
theorem covered (i : S4x8x64x256x256.Idx) :
    ∃ t : Fin cfg0.N, (cfg0.win 1).flush t = true ∧ i ∈ ((cfg0.win 1).blk t).view.set := by
  have h0 : (i 0).val < 4 := (i 0).isLt
  have h1 : (i 1).val < 8 := (i 1).isLt
  have h2 : (i 2).val < 64 := (i 2).isLt
  have h3 : (i 3).val < 256 := (i 3).isLt
  have h4 : (i 4).val < 256 := (i 4).isLt
  obtain ⟨t, ht⟩ := idx_onto ⟨(i 0).val, h0⟩ ⟨(i 1).val, h1⟩ ⟨(i 2).val / 16, by omega⟩
  have q0 : win0_1.index t (0 : Fin 5) = (i 0).val := congrFun ht 0
  have q1 : win0_1.index t (1 : Fin 5) = (i 1).val := congrFun ht 1
  have q2 : win0_1.index t (2 : Fin 5) = (i 2).val / 16 := congrFun ht 2
  have q3 : win0_1.index t (3 : Fin 5) = 0 := congrFun ht 3
  have q4 : win0_1.index t (4 : Fin 5) = 0 := congrFun ht 4
  refine ⟨t, flush0_1 t, ?_⟩
  rw [mem_blk]
  intro a
  match a with
  | ⟨0, _⟩ => show win0_1.index t (0 : Fin 5) * 1 ≤ (i 0).val ∧ (i 0).val < win0_1.index t (0 : Fin 5) * 1 + 1; omega
  | ⟨1, _⟩ => show win0_1.index t (1 : Fin 5) * 1 ≤ (i 1).val ∧ (i 1).val < win0_1.index t (1 : Fin 5) * 1 + 1; omega
  | ⟨2, _⟩ => show win0_1.index t (2 : Fin 5) * 16 ≤ (i 2).val ∧ (i 2).val < win0_1.index t (2 : Fin 5) * 16 + 16; omega
  | ⟨3, _⟩ => show win0_1.index t (3 : Fin 5) * 256 ≤ (i 3).val ∧ (i 3).val < win0_1.index t (3 : Fin 5) * 256 + 256; omega
  | ⟨4, _⟩ => show win0_1.index t (4 : Fin 5) * 256 ≤ (i 4).val ∧ (i 4).val < win0_1.index t (4 : Fin 5) * 256 + 256; omega

/-- THE ARRAY after the run: the stacked coefficients of the argument. -/
theorem stack_final (c : Dev nD) :
    (dats m 0 c).arrAt 1 cfg0.N = stacked (m ((c : Thread nD τ).loc main_arg0)) :=
  (dats m 0 c).arrAt_eq_of_cover 1 _ (fun t _ => flushed_eq m c t) covered

end Cert.Haar.Kernel

end
-- ==== Proof.KernelRun.lean ====
/-
  The kernel program's run, read: each of its four results is a quarter of the interleaved coefficients.

  After the launch the program slices slab `j` off the stacked array (`[1, 8, 64, 256, 256]`) and drops the unit axis:
  result `j` at `(b, k, h, w)` is the stack at `(j, b, k, h, w)`.
-/
import proofs.«159473_j43954695308070_2_alg».proof.Proof.KernelArray

noncomputable section

namespace Cert.Haar.Kernel

open Cert.KernelIdeal Cert.KernelIdeal.Gen
open Idealize.ShloMosaic Idealize.ShloMosaic.TcCoe Idealize.ShloMosaic.ValueIdx Idealize.ShloMosaic.Pipeline Idealize.SL.Sem Cert.Haar

variable {F : FTy → Type} [FloatOps F]
variable (m : (ℓ : Loc nD τ sig) → Buf (Elt F) ℓ) (ρ : Dev nD → PrngReg)

/-- Slab `j` of a stacked array with its unit axis dropped, at `(b, k, h, w)`, is the stack at `(j, b, k, h, w)`. -/
theorem slab_eq (X : Img.Idx → F .f32) (j : Fin 4) (off : Fin 5 → Nat)
    (hs : S4x8x64x256x256.Slices off S1x8x64x256x256)
    (hoff : ∀ a : Fin 5, off a = (![j.val, 0, 0, 0, 0] : Fin 5 → Nat) a)
    (hc : S1x8x64x256x256.ShapeCasts S8x64x256x256) :
    shapeCast S8x64x256x256 (extractStridedSlice S1x8x64x256x256 off (stacked X) hs) hc = quarter X j := by
  funext i
  obtain ⟨b, k, h, w, rfl⟩ : ∃ (b : Fin 8) (k : Fin 64) (h w : Fin 256), i = ix4 b k h w := ⟨i 0, i 1, i 2, i 3, eq_ix4 i⟩
  refine (shapeCast_apply _ hc (ix4 b k h w) (ix5 (0 : Fin 1) b k h w) ?_).trans ?_
  · rw [Shape.rowMajor_val_five, Shape.rowMajor_val_four]
    show (((0 * 8 + b.val) * 64 + k.val) * 256 + h.val) * 256 + w.val = ((b.val * 64 + k.val) * 256 + h.val) * 256 + w.val
    omega
  · refine (extractStridedSlice_apply off (stacked X) hs (ix5 (0 : Fin 1) b k h w) (ix5 j b k h w) ?_).trans ?_
    · intro a
      rw [hoff a]
      match a with
      | ⟨0, _⟩ => show j.val = j.val + 0; omega
      | ⟨1, _⟩ => show b.val = 0 + b.val; omega
      | ⟨2, _⟩ => show k.val = 0 + k.val; omega
      | ⟨3, _⟩ => show h.val = 0 + h.val; omega
      | ⟨4, _⟩ => show w.val = 0 + w.val; omega
    · exact stacked_apply X j (ix4 b k h w)

/-- The stacked array as the host tail finds it. -/
theorem stack_after (c : Dev nD) :
    Pipeline.withArrays spec0 c (V0 m c) (fun w => (dats m 0 c).arrAt w cfg0.N) (Proc.devRef .tc main_v2)
      = stacked (m ((c : Thread nD τ).loc main_arg0)) :=
  (Pipeline.withArrays_arr spec0 launch0.win.arr_inj c _ _ 1).trans (stack_final m c)

/-- Result 0 after the host tail. -/
theorem tail0 (c : Dev nD) :
    Pipeline.afterTail₀ cfgs (dats m) 0 (V0 m) [hostOps1 (F := F)] c main_v4 = quarter (F := F) (m ((c : Thread nD τ).loc main_arg0)) 0 := by
  unfold Pipeline.afterTail₀
  show StableHlo.after (hostOps1 (F := F)) _ (Proc.devRef .tc main_v4) = _
  after_results
  rw [stack_after m c]
  exact slab_eq (F := F) (m ((c : Thread nD τ).loc main_arg0)) 0 _ _ (fun a => by
    match a with
    | ⟨0, _⟩ => rfl
    | ⟨1, _⟩ => rfl
    | ⟨2, _⟩ => rfl
    | ⟨3, _⟩ => rfl
    | ⟨4, _⟩ => rfl) _

/-- Result 1 after the host tail. -/
theorem tail1 (c : Dev nD) :
    Pipeline.afterTail₀ cfgs (dats m) 0 (V0 m) [hostOps1 (F := F)] c main_v6 = quarter (F := F) (m ((c : Thread nD τ).loc main_arg0)) 1 := by
  unfold Pipeline.afterTail₀
  show StableHlo.after (hostOps1 (F := F)) _ (Proc.devRef .tc main_v6) = _
  after_results
  rw [stack_after m c]
  exact slab_eq (F := F) (m ((c : Thread nD τ).loc main_arg0)) 1 _ _ (fun a => by
    match a with
    | ⟨0, _⟩ => rfl
    | ⟨1, _⟩ => rfl
    | ⟨2, _⟩ => rfl
    | ⟨3, _⟩ => rfl
    | ⟨4, _⟩ => rfl) _

/-- Result 2 after the host tail. -/
theorem tail2 (c : Dev nD) :
    Pipeline.afterTail₀ cfgs (dats m) 0 (V0 m) [hostOps1 (F := F)] c main_v8 = quarter (F := F) (m ((c : Thread nD τ).loc main_arg0)) 2 := by
  unfold Pipeline.afterTail₀
  show StableHlo.after (hostOps1 (F := F)) _ (Proc.devRef .tc main_v8) = _
  after_results
  rw [stack_after m c]
  exact slab_eq (F := F) (m ((c : Thread nD τ).loc main_arg0)) 2 _ _ (fun a => by
    match a with
    | ⟨0, _⟩ => rfl
    | ⟨1, _⟩ => rfl
    | ⟨2, _⟩ => rfl
    | ⟨3, _⟩ => rfl
    | ⟨4, _⟩ => rfl) _

/-- Result 3 after the host tail. -/
theorem tail3 (c : Dev nD) :
    Pipeline.afterTail₀ cfgs (dats m) 0 (V0 m) [hostOps1 (F := F)] c main_v10 = quarter (F := F) (m ((c : Thread nD τ).loc main_arg0)) 3 := by
  unfold Pipeline.afterTail₀
  show StableHlo.after (hostOps1 (F := F)) _ (Proc.devRef .tc main_v10) = _
  after_results
  rw [stack_after m c]
  exact slab_eq (F := F) (m ((c : Thread nD τ).loc main_arg0)) 3 _ _ (fun a => by
    match a with
    | ⟨0, _⟩ => rfl
    | ⟨1, _⟩ => rfl
    | ⟨2, _⟩ => rfl
    | ⟨3, _⟩ => rfl
    | ⟨4, _⟩ => rfl) _

/-- The frame run re-posted: the four results at the four quarters of the argument's coefficients, the argument unchanged. -/
theorem run : θ_run defs (onTc (τ := τ) (main (F := F))) ⟨m, fun _ => 0, ρ⟩ fun r => ∀ c : Dev nD,
      r.2.mem ((c : Thread nD τ).loc main_v4) = quarter (F := F) (m ((c : Thread nD τ).loc main_arg0)) 0
      ∧ r.2.mem ((c : Thread nD τ).loc main_v6) = quarter (F := F) (m ((c : Thread nD τ).loc main_arg0)) 1
      ∧ r.2.mem ((c : Thread nD τ).loc main_v8) = quarter (F := F) (m ((c : Thread nD τ).loc main_arg0)) 2
      ∧ r.2.mem ((c : Thread nD τ).loc main_v10) = quarter (F := F) (m ((c : Thread nD τ).loc main_arg0)) 3
      ∧ r.2.mem ((c : Thread nD τ).loc main_arg0) = m ((c : Thread nD τ).loc main_arg0) :=
  (θ_run defs _ _).mono (fun r h c =>
      ⟨((h c).2 main_v4 (Pipeline.mem_restRefs_of main_v4 (by decide) (by decide))).trans (tail0 m c),
       ((h c).2 main_v6 (Pipeline.mem_restRefs_of main_v6 (by decide) (by decide))).trans (tail1 m c),
       ((h c).2 main_v8 (Pipeline.mem_restRefs_of main_v8 (by decide) (by decide))).trans (tail2 m c),
       ((h c).2 main_v10 (Pipeline.mem_restRefs_of main_v10 (by decide) (by decide))).trans (tail3 m c),
       ((h c).2 main_arg0 (Pipeline.mem_restRefs_of main_arg0 (by decide) (by decide))).trans (W_main_arg0 m (dats m) c)⟩)
    (run_main m ρ)

end Cert.Haar.Kernel

end
-- ==== Proof.RefQuarters.lean ====
/-
  The reference's four results are the four quarters of the interleaved Haar coefficients.

  The reference views the image as `[8, 64, 256, 2, 256, 2]` (row 2h+hp, column 2w+wp of a channel become
  `(h, hp, w, wp)`: the same row-major position), takes the four parity planes, forms the four coefficient planes,
  stacks them on a new axis of extent 4 after the channel axis and merges that axis into the channels:
  `[8, 64, 4, 256, 256] → [8, 256, 256, 256]`, combined channel `C = 4·ch + s`. Quarter `j` is the combined channels
  `64·j … 64·j + 63`.
-/
import proofs.«159473_j43954695308070_2_alg».proof.Proof.Gen.ReferenceIdeal.Read
import proofs.«159473_j43954695308070_2_alg».proof.Proof.HaarSpec

noncomputable section

namespace Cert.Haar.Ref

open Cert.ReferenceIdeal Cert.ReferenceIdeal.Gen Cert.ReferenceIdeal.Read
open Idealize.ShloMosaic Idealize.ShloMosaic.ValueIdx Cert.Haar

variable {F : FTy → Type} [FloatOps F]

/-! ## The four parity planes: plane (hp, wp) at (b, ch, h, w) is pixel (hp, wp) of block (h, w) -/

theorem plane00 (x : Img.Idx → F .f32) (b : Fin 8) (ch : Fin 64) (h w : Fin 256) :
    val_main_v2 (F := F) x (ix4 b ch h w) = x (px b ch h w 0 0) := by
  unfold val_main_v2
  refine (shapeCast_apply _ _ (ix4 b ch h w) (ix6 b ch h (0 : Fin 1) w (0 : Fin 1)) ?_).trans ?_
  · rw [Shape.rowMajor_val_six, Shape.rowMajor_val_four]
    show ((((b.val * 64 + ch.val) * 256 + h.val) * 1 + 0) * 256 + w.val) * 1 + 0 = ((b.val * 64 + ch.val) * 256 + h.val) * 256 + w.val
    omega
  rw [val_main_v1_apply]
  unfold val_main_v0
  refine shapeCast_apply _ _ _ (px b ch h w 0 0) ?_
  rw [Shape.rowMajor_val_four, Shape.rowMajor_val_six]
  show ((b.val * 64 + ch.val) * 512 + (2 * h.val + 0)) * 512 + (2 * w.val + 0)
    = ((((b.val * 64 + ch.val) * 256 + h.val) * 2 + 0) * 256 + w.val) * 2 + 0
  omega

theorem plane01 (x : Img.Idx → F .f32) (b : Fin 8) (ch : Fin 64) (h w : Fin 256) :
    val_main_v4 (F := F) x (ix4 b ch h w) = x (px b ch h w 0 1) := by
  unfold val_main_v4
  refine (shapeCast_apply _ _ (ix4 b ch h w) (ix6 b ch h (0 : Fin 1) w (0 : Fin 1)) ?_).trans ?_
  · rw [Shape.rowMajor_val_six, Shape.rowMajor_val_four]
    show ((((b.val * 64 + ch.val) * 256 + h.val) * 1 + 0) * 256 + w.val) * 1 + 0 = ((b.val * 64 + ch.val) * 256 + h.val) * 256 + w.val
    omega
  rw [val_main_v3_apply]
  unfold val_main_v0
  refine shapeCast_apply _ _ _ (px b ch h w 0 1) ?_
  rw [Shape.rowMajor_val_four, Shape.rowMajor_val_six]
  show ((b.val * 64 + ch.val) * 512 + (2 * h.val + 0)) * 512 + (2 * w.val + 1)
    = ((((b.val * 64 + ch.val) * 256 + h.val) * 2 + 0) * 256 + w.val) * 2 + (1 + 0)
  omega

theorem plane10 (x : Img.Idx → F .f32) (b : Fin 8) (ch : Fin 64) (h w : Fin 256) :
    val_main_v6 (F := F) x (ix4 b ch h w) = x (px b ch h w 1 0) := by
  unfold val_main_v6
  refine (shapeCast_apply _ _ (ix4 b ch h w) (ix6 b ch h (0 : Fin 1) w (0 : Fin 1)) ?_).trans ?_
  · rw [Shape.rowMajor_val_six, Shape.rowMajor_val_four]
    show ((((b.val * 64 + ch.val) * 256 + h.val) * 1 + 0) * 256 + w.val) * 1 + 0 = ((b.val * 64 + ch.val) * 256 + h.val) * 256 + w.val
    omega
  rw [val_main_v5_apply]
  unfold val_main_v0
  refine shapeCast_apply _ _ _ (px b ch h w 1 0) ?_
  rw [Shape.rowMajor_val_four, Shape.rowMajor_val_six]
  show ((b.val * 64 + ch.val) * 512 + (2 * h.val + 1)) * 512 + (2 * w.val + 0)
    = ((((b.val * 64 + ch.val) * 256 + h.val) * 2 + (1 + 0)) * 256 + w.val) * 2 + 0
  omega

theorem plane11 (x : Img.Idx → F .f32) (b : Fin 8) (ch : Fin 64) (h w : Fin 256) :
    val_main_v8 (F := F) x (ix4 b ch h w) = x (px b ch h w 1 1) := by
  unfold val_main_v8
  refine (shapeCast_apply _ _ (ix4 b ch h w) (ix6 b ch h (0 : Fin 1) w (0 : Fin 1)) ?_).trans ?_
  · rw [Shape.rowMajor_val_six, Shape.rowMajor_val_four]
    show ((((b.val * 64 + ch.val) * 256 + h.val) * 1 + 0) * 256 + w.val) * 1 + 0 = ((b.val * 64 + ch.val) * 256 + h.val) * 256 + w.val
    omega
  rw [val_main_v7_apply]
  unfold val_main_v0
  refine shapeCast_apply _ _ _ (px b ch h w 1 1) ?_
  rw [Shape.rowMajor_val_four, Shape.rowMajor_val_six]
  show ((b.val * 64 + ch.val) * 512 + (2 * h.val + 1)) * 512 + (2 * w.val + 1)
    = ((((b.val * 64 + ch.val) * 256 + h.val) * 2 + (1 + 0)) * 256 + w.val) * 2 + (1 + 0)
  omega

/-! ## The four coefficient planes -/

theorem coefPlane0 (x : Img.Idx → F .f32) (b : Fin 8) (ch : Fin 64) (h w : Fin 256) :
    val_main_v13 (F := F) x (ix4 b ch h w) = coef x 0 b ch h w := by
  rw [val_main_v13_apply, val_main_v12_apply, val_main_v11_apply, val_main_v10_apply, val_main_v9_apply,
    plane00, plane01, plane10, plane11]
  rfl

theorem coefPlane1 (x : Img.Idx → F .f32) (b : Fin 8) (ch : Fin 64) (h w : Fin 256) :
    val_main_v18 (F := F) x (ix4 b ch h w) = coef x 1 b ch h w := by
  rw [val_main_v18_apply, val_main_v17_apply, val_main_v16_apply, val_main_v15_apply, val_main_v14_apply,
    plane00, plane01, plane10, plane11]
  rfl

theorem coefPlane2 (x : Img.Idx → F .f32) (b : Fin 8) (ch : Fin 64) (h w : Fin 256) :
    val_main_v23 (F := F) x (ix4 b ch h w) = coef x 2 b ch h w := by
  rw [val_main_v23_apply, val_main_v22_apply, val_main_v21_apply, val_main_v20_apply, val_main_v19_apply,
    plane00, plane01, plane10, plane11]
  rfl

theorem coefPlane3 (x : Img.Idx → F .f32) (b : Fin 8) (ch : Fin 64) (h w : Fin 256) :
    val_main_v28 (F := F) x (ix4 b ch h w) = coef x 3 b ch h w := by
  rw [val_main_v28_apply, val_main_v27_apply, val_main_v26_apply, val_main_v25_apply, val_main_v24_apply,
    plane00, plane01, plane10, plane11]
  rfl

/-! ## The stack of the four coefficient planes, and the merged channel axis -/

/-- Position `s` of the stacking axis holds coefficient plane `s`. -/
theorem stack_apply (x : Img.Idx → F .f32) (b : Fin 8) (ch : Fin 64) (s : Fin 4) (h w : Fin 256) :
    val_main_v33 (F := F) x (ix5 b ch s h w) = coef x s.val b ch h w := by
  unfold val_main_v33
  match s with
  | ⟨0, _⟩ =>
    refine Eq.trans (concatenate_apply_piece (2 : Fin 5) _ _ (ix5 b ch (⟨0, by omega⟩ : Fin 4) h w) 0 (by simp only [List.length_cons, List.length_nil]; omega) S8x64x1x256x256 (val_main_v29 (F := F) x) rfl rfl 0 rfl
      (ix5 b ch (0 : Fin 1) h w) ?_ ?_) ?_
    · intro a ha
      match a with
      | ⟨0, _⟩ => rfl
      | ⟨1, _⟩ => rfl
      | ⟨2, _⟩ => exact absurd rfl ha
      | ⟨3, _⟩ => rfl
      | ⟨4, _⟩ => rfl
    · rfl
    · rw [val_main_v29_apply]
      have e : idx_main_v29 (ix5 b ch (0 : Fin 1) h w) = ix4 b ch h w := funext fun a => by
        match a with
        | ⟨0, _⟩ => rfl
        | ⟨1, _⟩ => rfl
        | ⟨2, _⟩ => rfl
        | ⟨3, _⟩ => rfl
      rw [e, coefPlane0]
  | ⟨1, _⟩ =>
    refine Eq.trans (concatenate_apply_piece (2 : Fin 5) _ _ (ix5 b ch (⟨1, by omega⟩ : Fin 4) h w) 1 (by simp only [List.length_cons, List.length_nil]; omega) S8x64x1x256x256 (val_main_v30 (F := F) x) rfl rfl 1 rfl
      (ix5 b ch (0 : Fin 1) h w) ?_ ?_) ?_
    · intro a ha
      match a with
      | ⟨0, _⟩ => rfl
      | ⟨1, _⟩ => rfl
      | ⟨2, _⟩ => exact absurd rfl ha
      | ⟨3, _⟩ => rfl
      | ⟨4, _⟩ => rfl
    · rfl
    · rw [val_main_v30_apply]
      have e : idx_main_v30 (ix5 b ch (0 : Fin 1) h w) = ix4 b ch h w := funext fun a => by
        match a with
        | ⟨0, _⟩ => rfl
        | ⟨1, _⟩ => rfl
        | ⟨2, _⟩ => rfl
        | ⟨3, _⟩ => rfl
      rw [e, coefPlane1]
  | ⟨2, _⟩ =>
    refine Eq.trans (concatenate_apply_piece (2 : Fin 5) _ _ (ix5 b ch (⟨2, by omega⟩ : Fin 4) h w) 2 (by simp only [List.length_cons, List.length_nil]; omega) S8x64x1x256x256 (val_main_v31 (F := F) x) rfl rfl 2 rfl
      (ix5 b ch (0 : Fin 1) h w) ?_ ?_) ?_
    · intro a ha
      match a with
      | ⟨0, _⟩ => rfl
      | ⟨1, _⟩ => rfl
      | ⟨2, _⟩ => exact absurd rfl ha
      | ⟨3, _⟩ => rfl
      | ⟨4, _⟩ => rfl
    · rfl
    · rw [val_main_v31_apply]
      have e : idx_main_v31 (ix5 b ch (0 : Fin 1) h w) = ix4 b ch h w := funext fun a => by
        match a with
        | ⟨0, _⟩ => rfl
        | ⟨1, _⟩ => rfl
        | ⟨2, _⟩ => rfl
        | ⟨3, _⟩ => rfl
      rw [e, coefPlane2]
  | ⟨3, _⟩ =>
    refine Eq.trans (concatenate_apply_piece (2 : Fin 5) _ _ (ix5 b ch (⟨3, by omega⟩ : Fin 4) h w) 3 (by simp only [List.length_cons, List.length_nil]; omega) S8x64x1x256x256 (val_main_v32 (F := F) x) rfl rfl 3 rfl
      (ix5 b ch (0 : Fin 1) h w) ?_ ?_) ?_
    · intro a ha
      match a with
      | ⟨0, _⟩ => rfl
      | ⟨1, _⟩ => rfl
      | ⟨2, _⟩ => exact absurd rfl ha
      | ⟨3, _⟩ => rfl
      | ⟨4, _⟩ => rfl
    · rfl
    · rw [val_main_v32_apply]
      have e : idx_main_v32 (ix5 b ch (0 : Fin 1) h w) = ix4 b ch h w := funext fun a => by
        match a with
        | ⟨0, _⟩ => rfl
        | ⟨1, _⟩ => rfl
        | ⟨2, _⟩ => rfl
        | ⟨3, _⟩ => rfl
      rw [e, coefPlane3]

/-- Combined channel `C` of the merged array is coefficient `C mod 4` of channel `C / 4`. -/
theorem merged_apply (x : Img.Idx → F .f32) (b : Fin 8) (C : Fin 256) (h w : Fin 256) :
    val_main_v34 (F := F) x (ix4 b C h w)
      = coef x (C.val % 4) b (⟨C.val / 4, by have := C.isLt; omega⟩ : Fin 64) h w := by
  unfold val_main_v34
  refine (shapeCast_apply _ _ (ix4 b C h w)
    (ix5 b (⟨C.val / 4, by have := C.isLt; omega⟩ : Fin 64) (⟨C.val % 4, by omega⟩ : Fin 4) h w) ?_).trans ?_
  · rw [Shape.rowMajor_val_five, Shape.rowMajor_val_four]
    show (((b.val * 64 + C.val / 4) * 4 + C.val % 4) * 256 + h.val) * 256 + w.val = ((b.val * 256 + C.val) * 256 + h.val) * 256 + w.val
    omega
  · exact stack_apply x b _ _ h w

/-- Combined channel `64·j + k` is local channel `k` of quarter `j`. -/
theorem quarter_of_merged (x : Img.Idx → F .f32) (j : Fin 4) (b : Fin 8) (k : Fin 64) (h w : Fin 256)
    (C : Fin 256) (hC : C.val = 64 * j.val + k.val) :
    val_main_v34 (F := F) x (ix4 b C h w) = quarter x j (ix4 b k h w) := by
  rw [merged_apply]
  show coef x (C.val % 4) b ⟨C.val / 4, _⟩ h w = coef x k.val b (chan j k) h w
  have e : (⟨C.val / 4, by have := C.isLt; omega⟩ : Fin 64) = chan j k :=
    Fin.ext (by show C.val / 4 = 16 * j.val + k.val / 4; omega)
  rw [e]
  unfold coef
  have hm : C.val % 4 = k.val % 4 := by omega
  rw [hm, band_mod]

/-! ## The four results -/

theorem result0 (x : Img.Idx → F .f32) : val_main_v35 (F := F) x = quarter x 0 := by
  funext i
  obtain ⟨b, k, h, w, rfl⟩ : ∃ (b : Fin 8) (k : Fin 64) (h w : Fin 256), i = ix4 b k h w := ⟨i 0, i 1, i 2, i 3, eq_ix4 i⟩
  rw [val_main_v35_apply]
  have e : idx_main_v35 (ix4 b k h w) = ix4 b (⟨k.val, by have := k.isLt; omega⟩ : Fin 256) h w := funext fun a => by
    match a with
    | ⟨0, _⟩ => rfl
    | ⟨1, _⟩ => rfl
    | ⟨2, _⟩ => rfl
    | ⟨3, _⟩ => rfl
  rw [e]
  exact quarter_of_merged x 0 b k h w _ (by show k.val = 64 * 0 + k.val; omega)

theorem result1 (x : Img.Idx → F .f32) : val_main_v36 (F := F) x = quarter x 1 := by
  funext i
  obtain ⟨b, k, h, w, rfl⟩ : ∃ (b : Fin 8) (k : Fin 64) (h w : Fin 256), i = ix4 b k h w := ⟨i 0, i 1, i 2, i 3, eq_ix4 i⟩
  rw [val_main_v36_apply]
  have e : idx_main_v36 (ix4 b k h w) = ix4 b (⟨64 + k.val, by have := k.isLt; omega⟩ : Fin 256) h w := funext fun a => by
    match a with
    | ⟨0, _⟩ => rfl
    | ⟨1, _⟩ => rfl
    | ⟨2, _⟩ => rfl
    | ⟨3, _⟩ => rfl
  rw [e]
  exact quarter_of_merged x 1 b k h w _ (by show 64 + k.val = 64 * 1 + k.val; omega)

theorem result2 (x : Img.Idx → F .f32) : val_main_v37 (F := F) x = quarter x 2 := by
  funext i
  obtain ⟨b, k, h, w, rfl⟩ : ∃ (b : Fin 8) (k : Fin 64) (h w : Fin 256), i = ix4 b k h w := ⟨i 0, i 1, i 2, i 3, eq_ix4 i⟩
  rw [val_main_v37_apply]
  have e : idx_main_v37 (ix4 b k h w) = ix4 b (⟨128 + k.val, by have := k.isLt; omega⟩ : Fin 256) h w := funext fun a => by
    match a with
    | ⟨0, _⟩ => rfl
    | ⟨1, _⟩ => rfl
    | ⟨2, _⟩ => rfl
    | ⟨3, _⟩ => rfl
  rw [e]
  exact quarter_of_merged x 2 b k h w _ (by show 128 + k.val = 64 * 2 + k.val; omega)

theorem result3 (x : Img.Idx → F .f32) : val_main_v38 (F := F) x = quarter x 3 := by
  funext i
  obtain ⟨b, k, h, w, rfl⟩ : ∃ (b : Fin 8) (k : Fin 64) (h w : Fin 256), i = ix4 b k h w := ⟨i 0, i 1, i 2, i 3, eq_ix4 i⟩
  rw [val_main_v38_apply]
  have e : idx_main_v38 (ix4 b k h w) = ix4 b (⟨192 + k.val, by have := k.isLt; omega⟩ : Fin 256) h w := funext fun a => by
    match a with
    | ⟨0, _⟩ => rfl
    | ⟨1, _⟩ => rfl
    | ⟨2, _⟩ => rfl
    | ⟨3, _⟩ => rfl
  rw [e]
  exact quarter_of_merged x 3 b k h w _ (by show 192 + k.val = 64 * 3 + k.val; omega)

end Cert.Haar.Ref

end
-- ==== Proof.lean ====
/-
  The 2-D Haar wavelet transform of an `[8, 64, 512, 512]` image batch, its four sub-bands channel-interleaved and cut
  into four quarters: a tiled kernel against a plain array program, equal over the extended reals.

  Both programs compute, for quarter `j`, sample `b`, local channel `k` and block `(h, w)`, coefficient `k mod 4` of the
  2×2 block `(h, w)` of input channel `16·j + k / 4` — the same four sums in the same order, times the same ½
  (`Cert.Haar.quarter`, HaarSpec.lean). They differ only in how they get there. The reference takes the four parity
  planes of the image, forms the four coefficient planes, stacks them after the channel axis, merges that axis into
  the channels and slices four runs of 64 combined channels (RefQuarters.lean). The kernel first separates the
  parities by a transpose, then at grid point `(j, b, g)` turns four channels of sample `b` into sixteen channels of
  quarter `j` (KernelBlock.lean: one point; KernelArray.lean: the 128 blocks tile the stacked result), and finally
  slices the four quarters off the stack (KernelRun.lean). Since the operations on each element are literally the
  same on both sides, the equality holds at any float instance and uses no law of arithmetic, so the finiteness of
  the input is never used. The three frames are the generated ones; the ideal pass rewrote nothing.
-/
import proofs.«159473_j43954695308070_2_alg».proof.Defs
import proofs.«159473_j43954695308070_2_alg».proof.Proof.Gen.Kernel.Frame
import proofs.«159473_j43954695308070_2_alg».proof.Proof.Gen.KernelIdeal.Frame
import proofs.«159473_j43954695308070_2_alg».proof.Proof.Gen.ReferenceIdeal.Run
import proofs.«159473_j43954695308070_2_alg».proof.Proof.Gen.ReferenceIdeal.Read
import proofs.«159473_j43954695308070_2_alg».proof.Proof.Gen.Pre_finite_inputs
import proofs.«159473_j43954695308070_2_alg».proof.Proof.KernelRun
import proofs.«159473_j43954695308070_2_alg».proof.Proof.RefQuarters

noncomputable section

namespace Cert.Proof

open Idealize.ShloMosaic Idealize.ShloMosaic.TcCoe Idealize.SL.Sem Cert.Haar

theorem frame_k : Cert.frame_Kernel := fun m ρ _ => Cert.Kernel.Gen.frame m ρ

theorem frame_ki : Cert.frame_KernelIdeal := fun m ρ _ => Cert.KernelIdeal.Gen.frame m ρ

/-- The reference has no launch: its frame is its run with the results dropped. -/
theorem frame_ri : Cert.frame_ReferenceIdeal := fun m ρ _ =>
  (θ_run Cert.ReferenceIdeal.defs _ _).mono (fun _ h c => (h c).2.2.2.2) (Cert.ReferenceIdeal.Value.run (F := Ideal) m ρ)

/-- The ideal pass rewrote no operation. -/
theorem preserves : Cert.preserves_Kernel_KernelIdeal := trivial

/-- Both programs end with result `j` at quarter `j` of the argument's interleaved coefficients. -/
theorem algebraic : Cert.algebraic_KernelIdeal_ReferenceIdeal := by
  intro m ρ m' ρ' _ hagree
  refine ⟨_, _, _, _, Cert.Haar.Kernel.run (F := Ideal) m ρ, ?_⟩
  refine (θ_run Cert.ReferenceIdeal.defs _ _).mono (fun _ h c => ?_) (Cert.ReferenceIdeal.Value.run (F := Ideal) m' ρ')
  obtain ⟨h0, h1, h2, h3, h4⟩ := h c
  refine ⟨?_, ?_, ?_, ?_, h4⟩
  · rw [h0, Cert.ReferenceIdeal.Read.val_main_v35_eq, Cert.Haar.Ref.result0, hagree c]
  · rw [h1, Cert.ReferenceIdeal.Read.val_main_v36_eq, Cert.Haar.Ref.result1, hagree c]
  · rw [h2, Cert.ReferenceIdeal.Read.val_main_v37_eq, Cert.Haar.Ref.result2, hagree c]
  · rw [h3, Cert.ReferenceIdeal.Read.val_main_v38_eq, Cert.Haar.Ref.result3, hagree c]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
